-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel

variable [Facts]

def fn {F : FTy → Type} [FloatOps F] (main_arg0 : FVec F S8x64x128x128 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  main_v3
-- ==== Kernel.lean ====
abbrev S8x64x128x128 : Shape := ⟨4, ![8, 64, 128, 128]⟩
abbrev S_ : Shape := ⟨0, ![]⟩
abbrev S8x64x130x130 : Shape := ⟨4, ![8, 64, 130, 130]⟩
abbrev S8x64x128x128x1 : Shape := ⟨5, ![8, 64, 128, 128, 1]⟩
abbrev S8x64x128x128x3 : Shape := ⟨5, ![8, 64, 128, 128, 3]⟩
abbrev S8x64x128x128x1x3 : Shape := ⟨6, ![8, 64, 128, 128, 1, 3]⟩
abbrev S8x64x128x128x3x3 : Shape := ⟨6, ![8, 64, 128, 128, 3, 3]⟩
abbrev S8x16384x3x3x64 : Shape := ⟨5, ![8, 16384, 3, 3, 64]⟩
abbrev S8x16384x64x3x3 : Shape := ⟨5, ![8, 16384, 64, 3, 3]⟩
abbrev S8x128x128x64 : Shape := ⟨4, ![8, 128, 128, 64]⟩
abbrev S8x16384x64 : Shape := ⟨3, ![8, 16384, 64]⟩
abbrev S8x16384x9x64 : Shape := ⟨4, ![8, 16384, 9, 64]⟩
abbrev S8x16384x64x9 : Shape := ⟨4, ![8, 16384, 64, 9]⟩
abbrev S8x16384x9 : Shape := ⟨3, ![8, 16384, 9]⟩
abbrev S1x1024x9x64 : Shape := ⟨4, ![1, 1024, 9, 64]⟩
abbrev S1x1024x64 : Shape := ⟨3, ![1, 1024, 64]⟩
abbrev S1x1024x9 : Shape := ⟨3, ![1, 1024, 9]⟩
abbrev S1x1024x1x64 : Shape := ⟨4, ![1, 1024, 1, 64]⟩
abbrev S8x9 : Shape := ⟨2, ![8, 9]⟩
abbrev S8x1x9 : Shape := ⟨3, ![8, 1, 9]⟩
abbrev S8x16384 : Shape := ⟨2, ![8, 16384]⟩
abbrev S8x16384x1 : Shape := ⟨3, ![8, 16384, 1]⟩
abbrev S1x256x64x9 : Shape := ⟨4, ![1, 256, 64, 9]⟩
abbrev S1x256x1 : Shape := ⟨3, ![1, 256, 1]⟩
abbrev S1x256x64 : Shape := ⟨3, ![1, 256, 64]⟩

abbrev nBuf : Space → Nat
  | .hbm => 55
  | .vmem => 12
  | .smem => 0
  | _ => 0

abbrev bufTy : (tb : Table) → Fin (tcTables nBuf tb) → BufTy
  | .hbm, ⟨0, _⟩ => ⟨S8x64x128x128, .f32⟩
  | .hbm, ⟨1, _⟩ => ⟨S_, .i32⟩
  | .hbm, ⟨2, _⟩ => ⟨S_, .f32⟩
  | .hbm, ⟨3, _⟩ => ⟨S8x64x130x130, .f32⟩
  | .hbm, ⟨4, _⟩ => ⟨S8x64x128x128, .f32⟩
  | .hbm, ⟨5, _⟩ => ⟨S8x64x128x128, .f32⟩
  | .hbm, ⟨6, _⟩ => ⟨S8x64x128x128, .f32⟩
  | .hbm, ⟨7, _⟩ => ⟨S8x64x128x128x1, .f32⟩
  | .hbm, ⟨8, _⟩ => ⟨S8x64x128x128x1, .f32⟩
  | .hbm, ⟨9, _⟩ => ⟨S8x64x128x128x1, .f32⟩
  | .hbm, ⟨10, _⟩ => ⟨S8x64x128x128x3, .f32⟩
  | .hbm, ⟨11, _⟩ => ⟨S8x64x128x128, .f32⟩
  | .hbm, ⟨12, _⟩ => ⟨S8x64x128x128, .f32⟩
  | .hbm, ⟨13, _⟩ => ⟨S8x64x128x128, .f32⟩
  | .hbm, ⟨14, _⟩ => ⟨S8x64x128x128x1, .f32⟩
  | .hbm, ⟨15, _⟩ => ⟨S8x64x128x128x1, .f32⟩
  | .hbm, ⟨16, _⟩ => ⟨S8x64x128x128x1, .f32⟩
  | .hbm, ⟨17, _⟩ => ⟨S8x64x128x128x3, .f32⟩
  | .hbm, ⟨18, _⟩ => ⟨S8x64x128x128, .f32⟩
  | .hbm, ⟨19, _⟩ => ⟨S8x64x128x128, .f32⟩
  | .hbm, ⟨20, _⟩ => ⟨S8x64x128x128, .f32⟩
  | .hbm, ⟨21, _⟩ => ⟨S8x64x128x128x1, .f32⟩
  | .hbm, ⟨22, _⟩ => ⟨S8x64x128x128x1, .f32⟩
  | .hbm, ⟨23, _⟩ => ⟨S8x64x128x128x1, .f32⟩
  | .hbm, ⟨24, _⟩ => ⟨S8x64x128x128x3, .f32⟩
  | .hbm, ⟨25, _⟩ => ⟨S8x64x128x128x1x3, .f32⟩
  | .hbm, ⟨26, _⟩ => ⟨S8x64x128x128x1x3, .f32⟩
  | .hbm, ⟨27, _⟩ => ⟨S8x64x128x128x1x3, .f32⟩
  | .hbm, ⟨28, _⟩ => ⟨S8x64x128x128x3x3, .f32⟩
  | .hbm, ⟨29, _⟩ => ⟨S8x16384x3x3x64, .f32⟩
  | .hbm, ⟨30, _⟩ => ⟨S8x16384x64x3x3, .f32⟩
  | .hbm, ⟨31, _⟩ => ⟨S8x128x128x64, .f32⟩
  | .hbm, ⟨32, _⟩ => ⟨S8x16384x64, .f32⟩
  | .hbm, ⟨33, _⟩ => ⟨S8x16384x9x64, .f32⟩
  | .hbm, ⟨34, _⟩ => ⟨S8x16384x64x9, .f32⟩
  | .hbm, ⟨35, _⟩ => ⟨S8x16384x9, .f32⟩
  | .hbm, ⟨36, _⟩ => ⟨S_, .f32⟩
  | .hbm, ⟨37, _⟩ => ⟨S8x9, .f32⟩
  | .hbm, ⟨38, _⟩ => ⟨S_, .f32⟩
  | .hbm, ⟨39, _⟩ => ⟨S8x9, .f32⟩
  | .hbm, ⟨40, _⟩ => ⟨S8x9, .f32⟩
  | .hbm, ⟨41, _⟩ => ⟨S8x1x9, .f32⟩
  | .hbm, ⟨42, _⟩ => ⟨S8x16384x9, .f32⟩
  | .hbm, ⟨43, _⟩ => ⟨S8x16384x9, .f32⟩
  | .hbm, ⟨44, _⟩ => ⟨S8x16384x9, .f32⟩
  | .hbm, ⟨45, _⟩ => ⟨S_, .f32⟩
  | .hbm, ⟨46, _⟩ => ⟨S8x9, .f32⟩
  | .hbm, ⟨47, _⟩ => ⟨S8x1x9, .f32⟩
  | .hbm, ⟨48, _⟩ => ⟨S8x16384x9, .f32⟩
  | .hbm, ⟨49, _⟩ => ⟨S8x16384x9, .f32⟩
  | .hbm, ⟨50, _⟩ => ⟨S_, .f32⟩
  | .hbm, ⟨51, _⟩ => ⟨S8x16384, .f32⟩
  | .hbm, ⟨52, _⟩ => ⟨S8x16384x1, .f32⟩
  | .hbm, ⟨53, _⟩ => ⟨S8x16384x64, .f32⟩
  | .hbm, ⟨54, _⟩ => ⟨S8x64x128x128, .f32⟩
  | .local _ .vmem, ⟨0, _⟩ => ⟨S1x1024x9x64, .f32⟩
  | .local _ .vmem, ⟨1, _⟩ => ⟨S1x1024x9x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x9, .f32⟩
  | .local _ .vmem, ⟨5, _⟩ => ⟨S1x1024x9, .f32⟩
  | .local _ .vmem, ⟨6, _⟩ => ⟨S1x256x64x9, .f32⟩
  | .local _ .vmem, ⟨7, _⟩ => ⟨S1x256x64x9, .f32⟩
  | .local _ .vmem, ⟨8, _⟩ => ⟨S1x256x1, .f32⟩
  | .local _ .vmem, ⟨9, _⟩ => ⟨S1x256x1, .f32⟩
  | .local _ .vmem, ⟨10, _⟩ => ⟨S1x256x64, .f32⟩
  | .local _ .vmem, ⟨11, _⟩ => ⟨S1x256x64, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst : Ref sig .tc := ⟨.hbm, 36, rfl⟩
abbrev main_v33 : Ref sig .tc := ⟨.hbm, 37, rfl⟩
abbrev main_cst_0 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x9x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 64], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  pads_S8x64x128x128_S8x64x130x130_000_000_110_110 : S8x64x128x128.Pads (![0, 0, 1, 1] : Fin 4 → Nat) ![0, 0, 1, 1] ![0, 0, 0, 0] S8x64x130x130
  h_S_ : 0 < S_.numel
  slices_S8x64x130x130_S8x64x128x128_0_0_0_0 : S8x64x130x130.Slices ![0, 0, 0, 0] S8x64x128x128
  slices_S8x64x130x130_S8x64x128x128_0_0_0_1 : S8x64x130x130.Slices ![0, 0, 0, 1] S8x64x128x128
  slices_S8x64x130x130_S8x64x128x128_0_0_0_2 : S8x64x130x130.Slices ![0, 0, 0, 2] S8x64x128x128
  bcast_S8x64x128x128_S8x64x128x128x1_0_1_2_3 : S8x64x128x128.BroadcastsInDim S8x64x128x128x1 (![0, 1, 2, 3] : Fin 4 → Fin S8x64x128x128x1.rank)
  concatenates_S8x64x128x128x1_S8x64x128x128x1_S8x64x128x128x1_S8x64x128x128x3_d4 : Shape.Concatenates [S8x64x128x128x1, S8x64x128x128x1, S8x64x128x128x1] S8x64x128x128x3 4
  slices_S8x64x130x130_S8x64x128x128_0_0_1_0 : S8x64x130x130.Slices ![0, 0, 1, 0] S8x64x128x128
  slices_S8x64x130x130_S8x64x128x128_0_0_1_1 : S8x64x130x130.Slices ![0, 0, 1, 1] S8x64x128x128
  slices_S8x64x130x130_S8x64x128x128_0_0_1_2 : S8x64x130x130.Slices ![0, 0, 1, 2] S8x64x128x128
  slices_S8x64x130x130_S8x64x128x128_0_0_2_0 : S8x64x130x130.Slices ![0, 0, 2, 0] S8x64x128x128
  slices_S8x64x130x130_S8x64x128x128_0_0_2_1 : S8x64x130x130.Slices ![0, 0, 2, 1] S8x64x128x128
  slices_S8x64x130x130_S8x64x128x128_0_0_2_2 : S8x64x130x130.Slices ![0, 0, 2, 2] S8x64x128x128
  bcast_S8x64x128x128x3_S8x64x128x128x1x3_0_1_2_3_5 : S8x64x128x128x3.BroadcastsInDim S8x64x128x128x1x3 (![0, 1, 2, 3, 5] : Fin 5 → Fin S8x64x128x128x1x3.rank)
  concatenates_S8x64x128x128x1x3_S8x64x128x128x1x3_S8x64x128x128x1x3_S8x64x128x128x3x3_d4 : Shape.Concatenates [S8x64x128x128x1x3, S8x64x128x128x1x3, S8x64x128x128x1x3] S8x64x128x128x3x3 4
  shapeCasts_S8x64x128x128x3x3_S8x16384x3x3x64 : S8x64x128x128x3x3.ShapeCasts S8x16384x3x3x64
  shapeCasts_S8x64x128x128x3x3_S8x16384x64x3x3 : S8x64x128x128x3x3.ShapeCasts S8x16384x64x3x3
  transposes_S8x64x128x128_S8x128x128x64_0_2_3_1 : S8x64x128x128.Transposes [0, 2, 3, 1] S8x128x128x64
  shapeCasts_S8x128x128x64_S8x16384x64 : S8x128x128x64.ShapeCasts S8x16384x64
  shapeCasts_S8x16384x3x3x64_S8x16384x9x64 : S8x16384x3x3x64.ShapeCasts S8x16384x9x64
  shapeCasts_S8x16384x64x3x3_S8x16384x64x9 : S8x16384x64x3x3.ShapeCasts S8x16384x64x9
  inb_S1x1024x9x64_S1x1024x9x64_0_0_0_0 : ∀ a, (![0, 0, 0, 0] : Fin 4 → Nat) a + S1x1024x9x64.size a ≤ S1x1024x9x64.size a
  h_S1x1024x9x64 : 0 < S1x1024x9x64.numel
  shapeCasts_S1x1024x9x64_S1x1024x9x64 : S1x1024x9x64.ShapeCasts S1x1024x9x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  shapeCasts_S1x1024x64_S1x1024x1x64 : S1x1024x64.ShapeCasts S1x1024x1x64
  shapeCasts_S1x1024x1x64_S1x1024x1x64 : S1x1024x1x64.ShapeCasts S1x1024x1x64
  broadcasts_S1x1024x1x64_S1x1024x9x64 : S1x1024x1x64.Broadcasts S1x1024x9x64
  reduces_S1x1024x9x64_S1x1024x9 : S1x1024x9x64.Reduces [3] S1x1024x9
  inb_S1x1024x9_S1x1024x9_0_0_0 : ∀ a, (![0, 0, 0] : Fin 3 → Nat) a + S1x1024x9.size a ≤ S1x1024x9.size a
  h_S1x1024x9 : 0 < S1x1024x9.numel
  reducesTo_S8x16384x9_S8x9_d1 : S8x16384x9.ReducesTo [1] S8x9
  bcast_S_S8x9 : S_.BroadcastsInDim S8x9 (![] : Fin 0 → Fin S8x9.rank)
  bcast_S8x9_S8x1x9_0_2 : S8x9.BroadcastsInDim S8x1x9 (![0, 2] : Fin 2 → Fin S8x1x9.rank)
  bcast_S8x1x9_S8x16384x9_0_1_2 : S8x1x9.BroadcastsInDim S8x16384x9 (![0, 1, 2] : Fin 3 → Fin S8x16384x9.rank)
  reducesTo_S8x16384x9_S8x16384_d2 : S8x16384x9.ReducesTo [2] S8x16384
  bcast_S8x16384_S8x16384x1_0_1 : S8x16384.BroadcastsInDim S8x16384x1 (![0, 1] : Fin 2 → Fin S8x16384x1.rank)
  inb_S1x256x64x9_S1x256x64x9_0_0_0_0 : ∀ a, (![0, 0, 0, 0] : Fin 4 → Nat) a + S1x256x64x9.size a ≤ S1x256x64x9.size a
  h_S1x256x64x9 : 0 < S1x256x64x9.numel
  shapeCasts_S1x256x64x9_S1x256x64x9 : S1x256x64x9.ShapeCasts S1x256x64x9
  reduces_S1x256x64x9_S1x256x64 : S1x256x64x9.Reduces [3] S1x256x64
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x64 : S1x256x1.Broadcasts S1x256x64
  inb_S1x256x64_S1x256x64_0_0_0 : ∀ a, (![0, 0, 0] : Fin 3 → Nat) a + S1x256x64.size a ≤ S1x256x64.size a
  h_S1x256x64 : 0 < S1x256x64.numel
  shapeCasts_S8x16384x64_S8x64x128x128 : S8x16384x64.ShapeCasts S8x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x9x64.size a ≤ S8x16384x9x64.size a
  hwx0_0 : ∀ i : grid0.Coords, EltTy.bits .f32 = 32 ∨ (Rect.block (s := S8x16384x9x64) S1x1024x9x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x16384x64.size a
  hwx0_1 : ∀ i : grid0.Coords, EltTy.bits .f32 = 32 ∨ (Rect.block (s := S8x16384x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x9.size a ≤ S8x16384x9.size a
  hwx0_2 : ∀ i : grid0.Coords, EltTy.bits .f32 = 32 ∨ (Rect.block (s := S8x16384x9) S1x1024x9.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64x9.size a ≤ S8x16384x64x9.size a
  hwx1_0 : ∀ i : grid1.Coords, EltTy.bits .f32 = 32 ∨ (Rect.block (s := S8x16384x64x9) S1x256x64x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S8x16384x1.size a
  hwx1_1 : ∀ i : grid1.Coords, EltTy.bits .f32 = 32 ∨ (Rect.block (s := S8x16384x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x64.size a ≤ S8x16384x64.size a
  hwx1_2 : ∀ i : grid1.Coords, EltTy.bits .f32 = 32 ∨ (Rect.block (s := S8x16384x64) S1x256x64.size (cc1_transform_2 i) (hinb1_2 i)).WholeWords (EltTy.packing .f32)

variable [Facts₀]

abbrev win0_0 : Pipeline.Window sig grid0 :=
  Pipeline.Window.ofSpec (Memref.whole main_v30) S1x1024x9x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x1024x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S1x256x64x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x64x128x128 : Shape := ⟨4, ![8, 64, 128, 128]⟩
abbrev S_ : Shape := ⟨0, ![]⟩
abbrev S8x64x130x130 : Shape := ⟨4, ![8, 64, 130, 130]⟩
abbrev S8x64x128x128x1 : Shape := ⟨5, ![8, 64, 128, 128, 1]⟩
abbrev S8x64x128x128x3 : Shape := ⟨5, ![8, 64, 128, 128, 3]⟩
abbrev S8x64x128x128x1x3 : Shape := ⟨6, ![8, 64, 128, 128, 1, 3]⟩
abbrev S8x64x128x128x3x3 : Shape := ⟨6, ![8, 64, 128, 128, 3, 3]⟩
abbrev S8x16384x3x3x64 : Shape := ⟨5, ![8, 16384, 3, 3, 64]⟩
abbrev S8x16384x64x3x3 : Shape := ⟨5, ![8, 16384, 64, 3, 3]⟩
abbrev S8x128x128x64 : Shape := ⟨4, ![8, 128, 128, 64]⟩
abbrev S8x16384x1x1x64 : Shape := ⟨5, ![8, 16384, 1, 1, 64]⟩
abbrev S8x16384x3x3 : Shape := ⟨4, ![8, 16384, 3, 3]⟩
abbrev S8x3x3 : Shape := ⟨3, ![8, 3, 3]⟩
abbrev S8x1x3x3 : Shape := ⟨4, ![8, 1, 3, 3]⟩
abbrev S8x16384 : Shape := ⟨2, ![8, 16384]⟩
abbrev S8x16384x1 : Shape := ⟨3, ![8, 16384, 1]⟩
abbrev S8x16384x64 : Shape := ⟨3, ![8, 16384, 64]⟩

abbrev nBuf : Space → Nat
  | .hbm => 59
  | .vmem => 0
  | .smem => 0
  | _ => 0

abbrev bufTy : (tb : Table) → Fin (tcTables nBuf tb) → BufTy
  | .hbm, ⟨0, _⟩ => ⟨S8x64x128x128, .f32⟩
  | .hbm, ⟨1, _⟩ => ⟨S_, .i32⟩
  | .hbm, ⟨2, _⟩ => ⟨S_, .f32⟩
  | .hbm, ⟨3, _⟩ => ⟨S8x64x130x130, .f32⟩
  | .hbm, ⟨4, _⟩ => ⟨S8x64x128x128, .f32⟩
  | .hbm, ⟨5, _⟩ => ⟨S8x64x128x128, .f32⟩
  | .hbm, ⟨6, _⟩ => ⟨S8x64x128x128, .f32⟩
  | .hbm, ⟨7, _⟩ => ⟨S8x64x128x128x1, .f32⟩
  | .hbm, ⟨8, _⟩ => ⟨S8x64x128x128x1, .f32⟩
  | .hbm, ⟨9, _⟩ => ⟨S8x64x128x128x1, .f32⟩
  | .hbm, ⟨10, _⟩ => ⟨S8x64x128x128x3, .f32⟩
  | .hbm, ⟨11, _⟩ => ⟨S8x64x128x128, .f32⟩
  | .hbm, ⟨12, _⟩ => ⟨S8x64x128x128, .f32⟩
  | .hbm, ⟨13, _⟩ => ⟨S8x64x128x128, .f32⟩
  | .hbm, ⟨14, _⟩ => ⟨S8x64x128x128x1, .f32⟩
  | .hbm, ⟨15, _⟩ => ⟨S8x64x128x128x1, .f32⟩
  | .hbm, ⟨16, _⟩ => ⟨S8x64x128x128x1, .f32⟩
  | .hbm, ⟨17, _⟩ => ⟨S8x64x128x128x3, .f32⟩
  | .hbm, ⟨18, _⟩ => ⟨S8x64x128x128, .f32⟩
  | .hbm, ⟨19, _⟩ => ⟨S8x64x128x128, .f32⟩
  | .hbm, ⟨20, _⟩ => ⟨S8x64x128x128, .f32⟩
  | .hbm, ⟨21, _⟩ => ⟨S8x64x128x128x1, .f32⟩
  | .hbm, ⟨22, _⟩ => ⟨S8x64x128x128x1, .f32⟩
  | .hbm, ⟨23, _⟩ => ⟨S8x64x128x128x1, .f32⟩
  | .hbm, ⟨24, _⟩ => ⟨S8x64x128x128x3, .f32⟩
  | .hbm, ⟨25, _⟩ => ⟨S8x64x128x128x1x3, .f32⟩
  | .hbm, ⟨26, _⟩ => ⟨S8x64x128x128x1x3, .f32⟩
  | .hbm, ⟨27, _⟩ => ⟨S8x64x128x128x1x3, .f32⟩
  | .hbm, ⟨28, _⟩ => ⟨S8x64x128x128x3x3, .f32⟩
  | .hbm, ⟨29, _⟩ => ⟨S8x16384x3x3x64, .f32⟩
  | .hbm, ⟨30, _⟩ => ⟨S8x16384x64x3x3, .f32⟩
  | .hbm, ⟨31, _⟩ => ⟨S8x128x128x64, .f32⟩
  | .hbm, ⟨32, _⟩ => ⟨S8x16384x1x1x64, .f32⟩
  | .hbm, ⟨33, _⟩ => ⟨S8x16384x3x3x64, .f32⟩
  | .hbm, ⟨34, _⟩ => ⟨S8x16384x3x3x64, .f32⟩
  | .hbm, ⟨35, _⟩ => ⟨S_, .f32⟩
  | .hbm, ⟨36, _⟩ => ⟨S8x16384x3x3, .f32⟩
  | .hbm, ⟨37, _⟩ => ⟨S_, .f32⟩
  | .hbm, ⟨38, _⟩ => ⟨S8x3x3, .f32⟩
  | .hbm, ⟨39, _⟩ => ⟨S_, .f32⟩
  | .hbm, ⟨40, _⟩ => ⟨S8x3x3, .f32⟩
  | .hbm, ⟨41, _⟩ => ⟨S8x3x3, .f32⟩
  | .hbm, ⟨42, _⟩ => ⟨S8x1x3x3, .f32⟩
  | .hbm, ⟨43, _⟩ => ⟨S8x16384x3x3, .f32⟩
  | .hbm, ⟨44, _⟩ => ⟨S8x16384x3x3, .f32⟩
  | .hbm, ⟨45, _⟩ => ⟨S8x16384x3x3, .f32⟩
  | .hbm, ⟨46, _⟩ => ⟨S_, .f32⟩
  | .hbm, ⟨47, _⟩ => ⟨S8x3x3, .f32⟩
  | .hbm, ⟨48, _⟩ => ⟨S8x1x3x3, .f32⟩
  | .hbm, ⟨49, _⟩ => ⟨S8x16384x3x3, .f32⟩
  | .hbm, ⟨50, _⟩ => ⟨S8x16384x3x3, .f32⟩
  | .hbm, ⟨51, _⟩ => ⟨S_, .f32⟩
  | .hbm, ⟨52, _⟩ => ⟨S8x16384, .f32⟩
  | .hbm, ⟨53, _⟩ => ⟨S8x16384x1, .f32⟩
  | .hbm, ⟨54, _⟩ => ⟨S_, .f32⟩
  | .hbm, ⟨55, _⟩ => ⟨S8x16384x64, .f32⟩
  | .hbm, ⟨56, _⟩ => ⟨S8x16384x64, .f32⟩
  | .hbm, ⟨57, _⟩ => ⟨S8x16384x64, .f32⟩
  | .hbm, ⟨58, _⟩ => ⟨S8x64x128x128, .f32⟩
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]

class Facts₀ : Prop where
  pads_S8x64x128x128_S8x64x130x130_000_000_110_110 : S8x64x128x128.Pads (![0, 0, 1, 1] : Fin 4 → Nat) ![0, 0, 1, 1] ![0, 0, 0, 0] S8x64x130x130
  h_S_ : 0 < S_.numel
  slices_S8x64x130x130_S8x64x128x128_0_0_0_0 : S8x64x130x130.Slices ![0, 0, 0, 0] S8x64x128x128
  slices_S8x64x130x130_S8x64x128x128_0_0_0_1 : S8x64x130x130.Slices ![0, 0, 0, 1] S8x64x128x128
  slices_S8x64x130x130_S8x64x128x128_0_0_0_2 : S8x64x130x130.Slices ![0, 0, 0, 2] S8x64x128x128
  bcast_S8x64x128x128_S8x64x128x128x1_0_1_2_3 : S8x64x128x128.BroadcastsInDim S8x64x128x128x1 (![0, 1, 2, 3] : Fin 4 → Fin S8x64x128x128x1.rank)
  concatenates_S8x64x128x128x1_S8x64x128x128x1_S8x64x128x128x1_S8x64x128x128x3_d4 : Shape.Concatenates [S8x64x128x128x1, S8x64x128x128x1, S8x64x128x128x1] S8x64x128x128x3 4
  slices_S8x64x130x130_S8x64x128x128_0_0_1_0 : S8x64x130x130.Slices ![0, 0, 1, 0] S8x64x128x128
  slices_S8x64x130x130_S8x64x128x128_0_0_1_1 : S8x64x130x130.Slices ![0, 0, 1, 1] S8x64x128x128
  slices_S8x64x130x130_S8x64x128x128_0_0_1_2 : S8x64x130x130.Slices ![0, 0, 1, 2] S8x64x128x128
  slices_S8x64x130x130_S8x64x128x128_0_0_2_0 : S8x64x130x130.Slices ![0, 0, 2, 0] S8x64x128x128
  slices_S8x64x130x130_S8x64x128x128_0_0_2_1 : S8x64x130x130.Slices ![0, 0, 2, 1] S8x64x128x128
  slices_S8x64x130x130_S8x64x128x128_0_0_2_2 : S8x64x130x130.Slices ![0, 0, 2, 2] S8x64x128x128
  bcast_S8x64x128x128x3_S8x64x128x128x1x3_0_1_2_3_5 : S8x64x128x128x3.BroadcastsInDim S8x64x128x128x1x3 (![0, 1, 2, 3, 5] : Fin 5 → Fin S8x64x128x128x1x3.rank)
  concatenates_S8x64x128x128x1x3_S8x64x128x128x1x3_S8x64x128x128x1x3_S8x64x128x128x3x3_d4 : Shape.Concatenates [S8x64x128x128x1x3, S8x64x128x128x1x3, S8x64x128x128x1x3] S8x64x128x128x3x3 4
  shapeCasts_S8x64x128x128x3x3_S8x16384x3x3x64 : S8x64x128x128x3x3.ShapeCasts S8x16384x3x3x64
  shapeCasts_S8x64x128x128x3x3_S8x16384x64x3x3 : S8x64x128x128x3x3.ShapeCasts S8x16384x64x3x3
  transposes_S8x64x128x128_S8x128x128x64_0_2_3_1 : S8x64x128x128.Transposes [0, 2, 3, 1] S8x128x128x64
  shapeCasts_S8x128x128x64_S8x16384x1x1x64 : S8x128x128x64.ShapeCasts S8x16384x1x1x64
  bcast_S8x16384x1x1x64_S8x16384x3x3x64_0_1_2_3_4 : S8x16384x1x1x64.BroadcastsInDim S8x16384x3x3x64 (![0, 1, 2, 3, 4] : Fin 5 → Fin S8x16384x3x3x64.rank)
  reducesTo_S8x16384x3x3x64_S8x16384x3x3_d4 : S8x16384x3x3x64.ReducesTo [4] S8x16384x3x3
  reducesTo_S8x16384x3x3_S8x3x3_d1 : S8x16384x3x3.ReducesTo [1] S8x3x3
  bcast_S_S8x3x3 : S_.BroadcastsInDim S8x3x3 (![] : Fin 0 → Fin S8x3x3.rank)
  bcast_S8x3x3_S8x1x3x3_0_2_3 : S8x3x3.BroadcastsInDim S8x1x3x3 (![0, 2, 3] : Fin 3 → Fin S8x1x3x3.rank)
  bcast_S8x1x3x3_S8x16384x3x3_0_1_2_3 : S8x1x3x3.BroadcastsInDim S8x16384x3x3 (![0, 1, 2, 3] : Fin 4 → Fin S8x16384x3x3.rank)
  reducesTo_S8x16384x3x3_S8x16384_d2_3 : S8x16384x3x3.ReducesTo [2, 3] S8x16384
  bcast_S8x16384_S8x16384x1_0_1 : S8x16384.BroadcastsInDim S8x16384x1 (![0, 1] : Fin 2 → Fin S8x16384x1.rank)
  reducesTo_S8x16384x64x3x3_S8x16384x64_d3_4 : S8x16384x64x3x3.ReducesTo [3, 4] S8x16384x64
  bcast_S8x16384x1_S8x16384x64_0_1_2 : S8x16384x1.BroadcastsInDim S8x16384x64 (![0, 1, 2] : Fin 3 → Fin S8x16384x64.rank)
  shapeCasts_S8x16384x64_S8x64x128x128 : S8x16384x64.ShapeCasts S8x64x128x128

variable [Facts₀]

class Facts : Prop extends Facts₀ where

variable [Facts]
-- ==== Proof.KDefsB.lean ====
/-
  The two kernels of the program, each at a parameter `V` (the buffer contents when its region is entered):
  a window's block at a grid point, what the body leaves in the output window's buffer, and the pipeline's proof data.

  Region 0 (grid 8 x 16): at point t the body reads a [1,1024,9,64] block of `left` and a [1,1024,64] block of `mid`
  and stores, whole, the [1,1024,9] block of their channel sums. Region 1 (grid 8 x 64): it reads a [1,256,64,9] block
  of `right` and a [1,256,1] block of the softmax sums and stores, whole, the [1,256,64] block of window sums plus
  softmax sum. Both bodies also load their output buffer and never use the value. Stated for any float instance.
-/
import proofs.«112301_j67808943669345_2_alg».proof.Proof.Gen.Kernel.Launch
import proofs.«112301_j67808943669345_2_alg».proof.Proof.Gen.Kernel.Skeleton
import proofs.«112301_j67808943669345_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the channel sums -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's three accesses, each the whole staging buffer. -/
abbrev r0_0 : Rect S1x1024x9x64 := Rect.unit (s := S1x1024x9x64) ![0, 0, 0, 0] S1x1024x9x64.size inb_S1x1024x9x64_S1x1024x9x64_0_0_0_0
abbrev r0_1 : Rect S1x1024x64 := Rect.unit (s := S1x1024x64) ![0, 0, 0] S1x1024x64.size inb_S1x1024x64_S1x1024x64_0_0_0
abbrev r0_2 : Rect S1x1024x9 := Rect.unit (s := S1x1024x9) ![0, 0, 0] S1x1024x9.size inb_S1x1024x9_S1x1024x9_0_0_0

/-- The output window's buffer after the body, from the two input blocks: its one store. -/
def out0_2 (x0 : Vec F S1x1024x9x64 .f32) (x1 : Vec F S1x1024x64 .f32) : Vec F S1x1024x9 .f32 :=
  View.canon [⟨r0_2, k0_pay1 (View.ld x0 r0_0) (View.ld x1 r0_1)⟩]

/-- The pipeline's proof data on core `c`: the arrays as the region finds them; after the body each input's buffer
    at its block and the output's at `out0_2` of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the window sums -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x256x64x9 := Rect.unit (s := S1x256x64x9) ![0, 0, 0, 0] S1x256x64x9.size inb_S1x256x64x9_S1x256x64x9_0_0_0_0
abbrev r1_1 : Rect S1x256x1 := Rect.unit (s := S1x256x1) ![0, 0, 0] S1x256x1.size inb_S1x256x1_S1x256x1_0_0_0
abbrev r1_2 : Rect S1x256x64 := Rect.unit (s := S1x256x64) ![0, 0, 0] S1x256x64.size inb_S1x256x64_S1x256x64_0_0_0

/-- The output window's buffer after the body, from the two input blocks: its one store. -/
def out1_2 (x0 : Vec F S1x256x64x9 .f32) (x1 : Vec F S1x256x1 .f32) : Vec F S1x256x64 .f32 :=
  View.canon [⟨r1_2, k1_pay1 (View.ld x0 r1_0) (View.ld x1 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.Kernel.Hand

end
-- ==== Proof.KBodyB.lean ====
/-
  The two kernel bodies as the pipeline calls them. For each region, at the buffer contents `V` it is entered
  with: each input window's current staging buffer holds that window's block at every grid point; the single
  store of the body covers the output window's staging buffer; the body, run on whole staging buffers holding the
  two input blocks, leaves the inputs as they were and the output at the stored payload (it also loads the output
  buffer first and never uses that value); and from these the obligation the pipeline asks of its body at every
  point. Stated for any float instance.
-/
import proofs.«112301_j67808943669345_2_alg».proof.Proof.KDefsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Input window 0's current staging buffer holds its block at every point, fetched there or not: the window is
    fetched at every point and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The same for input window 1. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The body's one store is the whole output buffer, so it covers it. -/
theorem cover0_2 (p0 : Vec F S1x1024x9 .f32) (y : S1x1024x9.Idx) :
    ∃ pc ∈ ([⟨r0_2, p0⟩] : List (View.Piece (Elt F) S1x1024x9 .f32)), y ∈ pc.1.set :=
  View.cover_of_tiled [⟨r0_2, p0⟩] S1x1024x9.size (by rfl) y

set_option maxHeartbeats 1000000 in
/-- The body on whole staging buffers, the inputs' at contents `x0`, `x1` and the output's at anything, runs to the
    continuation holding the inputs as they were and the output at `out0_2 x0 x1`: three loads (the third, of the
    output buffer, is never used) and one store of the payload over the whole output buffer. -/
theorem sound_kernel0 (c : Dev nD) (E : Set ℕ) (i : grid0.Coords)
    (arg2 : Memref sig .tc .vmem S1x1024x9x64 .f32) (harg2 : arg2.IsWhole)
    (arg3 : Memref sig .tc .vmem S1x1024x64 .f32) (harg3 : arg3.IsWhole)
    (arg4 : Memref sig .tc .vmem S1x1024x9 .f32) (harg4 : arg4.IsWhole)
    (x0 : Vec F S1x1024x9x64 .f32) (x1 : Vec F S1x1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__kernel_channel_sum i arg2 harg2 arg3 harg3 arg4 harg4) K := by
  simp only [cc0__kernel_channel_sum_eq_skeleton]; unfold cc0__kernel_channel_sum_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' staging buffers hold their blocks, so `sound_kernel0` applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! ## Region 1 -/

/-- Input window 0's current staging buffer holds its block at every point, fetched there or not: the window is
    fetched at every point and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The same for input window 1. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The body's one store is the whole output buffer, so it covers it. -/
theorem cover1_2 (p0 : Vec F S1x256x64 .f32) (y : S1x256x64.Idx) :
    ∃ pc ∈ ([⟨r1_2, p0⟩] : List (View.Piece (Elt F) S1x256x64 .f32)), y ∈ pc.1.set :=
  View.cover_of_tiled [⟨r1_2, p0⟩] S1x256x64.size (by rfl) y

set_option maxHeartbeats 1000000 in
/-- The body on whole staging buffers, the inputs' at contents `x0`, `x1` and the output's at anything, runs to the
    continuation holding the inputs as they were and the output at `out1_2 x0 x1`: three loads (the third, of the
    output buffer, is never used) and one store of the payload over the whole output buffer. -/
theorem sound_kernel1 (c : Dev nD) (E : Set ℕ) (i : grid1.Coords)
    (arg2 : Memref sig .tc .vmem S1x256x64x9 .f32) (harg2 : arg2.IsWhole)
    (arg3 : Memref sig .tc .vmem S1x256x1 .f32) (harg3 : arg3.IsWhole)
    (arg4 : Memref sig .tc .vmem S1x256x64 .f32) (harg4 : arg4.IsWhole)
    (x0 : Vec F S1x256x64x9 .f32) (x1 : Vec F S1x256x1 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__kernel_window_sum i arg2 harg2 arg3 harg3 arg4 harg4) K := by
  simp only [cc1__kernel_window_sum_eq_skeleton]; unfold cc1__kernel_window_sum_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' staging buffers hold their blocks, so `sound_kernel1` applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRunB.lean ====
/-
  The word-level kernel program's run. @main is seven items: three host stretches, region 0, the softmax stretch, region 1, the
  last reshape. Between two items a core holds every unscoped buffer at a valuation: the launch memory, folded through
  the host stretches, updated at a region's result array by what that region's write-backs leave. Each region is a
  segment whose arrays are split out of the unscoped buffers at its entry and put back at its exit; the generator
  register rides along. Stated for any float instance.
-/
import proofs.«112301_j67808943669345_2_alg».proof.Proof.KBodyB
import proofs.«112301_j67808943669345_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave, and the buffer contents around them -/

/-- The buffer contents when region 0 is entered: the launch memory after the three host stretches before it. -/
abbrev entry0 : (c : Dev nD) → (b : Ref sig .tc) → Buf (Elt F) ((c : Thread nD τ).loc b) := fun c b => Gen.V3 m c b

/-- Region 0's arrays after its pipeline: the inputs as entered, the channel sums' array at what the write-backs leave. -/
def W4 (c : Dev nD) : Valuation τ sig (Elt F) :=
  Pipeline.withArrays spec0 c (Gen.V3 m c) fun w => (dat0 (entry0 m) c).arrAt w cfg0.N

/-- The unknowns of the host side with only region 0's result filled in. -/
def o4 : Gen.Outs (F := F) := fun _ r c => W4 m c r

/-- The buffer contents when region 1 is entered, for given region results. -/
abbrev entry1 (o : Gen.Outs (F := F)) : (c : Dev nD) → (b : Ref sig .tc) → Buf (Elt F) ((c : Thread nD τ).loc b) := fun c b => Gen.V5 m o c b

/-- Region 1's arrays after its pipeline. -/
def W6 (c : Dev nD) : Valuation τ sig (Elt F) :=
  Pipeline.withArrays spec1 c (Gen.V5 m (o4 m) c) fun w => (dat1 (entry1 m (o4 m)) c).arrAt w cfg1.N

/-- What the regions leave in the buffers they may change: after region 0 (read at 4) its result array, after region 1
    (read at 6) its result array. -/
def outs : Gen.Outs (F := F) := fun J r c => if J = 6 then W6 m c r else W4 m c r

/-- Region 1's entry contents read only region 0's result, which `outs` and `o4` give alike. -/
theorem entry1_outs : entry1 m (outs m) = entry1 m (o4 m) := rfl

theorem outs4 (c : Dev nD) : outs m 4 main_v32 c = (dat0 (entry0 m) c).arrAt 2 cfg0.N := by
  show W4 m c main_v32 = _
  unfold W4; exact Pipeline.withArrays_arr spec0 launch0.win.arr_inj c _ _ 2

theorem outs6 (c : Dev nD) : outs m 6 main_v46 c = (dat1 (entry1 m (outs m)) c).arrAt 2 cfg1.N := by
  show W6 m c main_v46 = _
  unfold W6; exact Pipeline.withArrays_arr spec1 launch1.win.arr_inj c _ _ 2

/-- The contents region 0 is left at, read at the TensorCore's references. -/
abbrev exit0 : (c : Dev nD) → (b : Ref sig .tc) → Buf (Elt F) ((c : Thread nD τ).loc b) := fun c b => Gen.V4 m (outs m) c b
/-- The contents region 1 is left at. -/
abbrev exit1 : (c : Dev nD) → (b : Ref sig .tc) → Buf (Elt F) ((c : Thread nD τ).loc b) := fun c b => Gen.V6 m (outs m) c b

/-- At region 0's exit each of its arrays holds what the pipeline leaves: the result array by the choice of `outs`, an
    input array its entry contents (the pipeline does not write it, and the exit contents differ from the entry only at the result). -/
theorem hF0 (c : Dev nD) : ∀ w : Fin cfg0.W, (dat0 (entry0 m) c).arrAt w cfg0.N = exit0 m c (Pipeline.arrRef spec0 w)
  | ⟨0, _⟩ => ((dat0 (entry0 m) c).arrAt_in 0 rfl _).trans ((A_eq0 (entry0 m) c 0).trans (Gen.V4_of m (outs m) c main_v30 (by decide)).symm)
  | ⟨1, _⟩ => ((dat0 (entry0 m) c).arrAt_in 1 rfl _).trans ((A_eq0 (entry0 m) c 1).trans (Gen.V4_of m (outs m) c main_v29 (by decide)).symm)
  | ⟨2, _⟩ => (outs4 m c).symm.trans (by
      show outs m 4 main_v32 c = Function.update (Gen.V3 m c) main_v32 (outs m 4 main_v32 c) main_v32
      rw [Function.update_self])
theorem hrest0 (c : Dev nD) : ∀ b, b ∉ Finset.univ.image (Pipeline.arrRef spec0) → exit0 m c b = entry0 m c b :=
  fun b hb => Gen.V4_of m (outs m) c b (by
    intro hmem
    exact hb (Finset.mem_image.mpr ⟨2, Finset.mem_univ _, (List.mem_singleton.mp hmem).symm⟩))

theorem hF1 (c : Dev nD) : ∀ w : Fin cfg1.W, (dat1 (entry1 m (outs m)) c).arrAt w cfg1.N = exit1 m c (Pipeline.arrRef spec1 w)
  | ⟨0, _⟩ => ((dat1 (entry1 m (outs m)) c).arrAt_in 0 rfl _).trans ((A_eq1 (entry1 m (outs m)) c 0).trans (Gen.V6_of m (outs m) c main_v31 (by decide)).symm)
  | ⟨1, _⟩ => ((dat1 (entry1 m (outs m)) c).arrAt_in 1 rfl _).trans ((A_eq1 (entry1 m (outs m)) c 1).trans (Gen.V6_of m (outs m) c main_v45 (by decide)).symm)
  | ⟨2, _⟩ => (outs6 m c).symm.trans (by
      show outs m 6 main_v46 c = Function.update (Gen.V5 m (outs m) c) main_v46 (outs m 6 main_v46 c) main_v46
      rw [Function.update_self])
theorem hrest1 (c : Dev nD) : ∀ b, b ∉ Finset.univ.image (Pipeline.arrRef spec1) → exit1 m c b = entry1 m (outs m) c b :=
  fun b hb => Gen.V6_of m (outs m) c b (by
    intro hmem
    exact hb (Finset.mem_image.mpr ⟨2, Finset.mem_univ _, (List.mem_singleton.mp hmem).symm⟩))

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m (outs m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The regions as segments -/

set_option backward.isDefEq.respectTransparency.types false in
/-- Region 0 over the thread state: entered from every unscoped buffer at the contents after the host prefix, left at
    those contents updated at the channel sums' array. Its arrays are split out of the unscoped buffers and put back;
    the generator register goes into the pipeline's invariant and comes out; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the softmax stretch, left
    at those contents updated at the window sums' array. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m (outs m)) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m (outs m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m (outs m) c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- The run with the result named: every weakly fair execution of @main terminates, nothing faulting, with the result
    buffer at the last host stretch's contents (`Gen.V7` at the regions' results `outs`) and the argument as launched.
    The launch is the one of the host side's conditional frame, with the last thread state read at the result too. -/
theorem run_val : θ_run defs (onTc (τ := τ) (main (F := F))) ⟨m, fun _ => 0, ρ⟩ (fun r => ∀ c : Dev nD,
      r.2.mem ((c.tc : Thread nD τ).loc main_v47) = Gen.V7 m (outs m) c main_v47
      ∧ r.2.mem ((c.tc : Thread nD τ).loc main_arg0) = m ((c.tc : Thread nD τ).loc main_arg0)) := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (by
      iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v47) = Gen.V7 m (outs m) c main_v47
      ∧ s.mem ((c.tc : Thread nD τ).loc main_arg0) = m ((c.tc : Thread nD τ).loc main_arg0))
    (hfin := fun c s' => ?_) (hQ := fun _ h => h)
  -- the end: both buffers read off the last valuation
  unfold StableHlo.held
  iintro ⟨Hh, HSI⟩
  ihave Hr := (pointsTo_read_all (Pipeline.ucRefs τ sig) (fun b => ((c : Thread nD τ).1, b)) (Gen.V7 m (outs m) c) s') $$ [Hh HSI]
  · isplitl [Hh] <;> iassumption
  icases Hr with ⟨%h, HSI⟩
  imodintro
  isplitr
  · ipureintro
    exact ⟨h (Proc.devRef .tc main_v47) (Finset.mem_filter.mpr ⟨StableHlo.devRef_mem_tcRefs main_v47, by decide⟩),
      (h (Proc.devRef .tc main_arg0) (Finset.mem_filter.mpr ⟨StableHlo.devRef_mem_tcRefs main_arg0, by decide⟩)).trans (Gen.V7_main_arg0 m (outs m) c)⟩
  · iexact HSI

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_val m ρ)

end Cert.Kernel.Hand

end
-- ==== Proof.RefFold.lean ====
import proofs.«112301_j67808943669345_2_alg».proof.Proof.RefRead

noncomputable section

namespace Cert.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! The reference program's run, read back stage by stage. The program is a straight line of 58 operations; the
contents of a buffer after the line is the fold of the operations' results over the launch contents. The fold is read
in seven lines, cut so that every three-way concatenation ends a line: over ANY entry contents, each line leaves at the
buffers the later lines read the stage functions of the argument's contents (the stages of the read-back module), given
that its own operands hold their stages on entry. Chaining the seven gives the result buffer as the last stage of the
argument's launch contents; the argument's buffer is written by no operation. -/

local macro "d_writes_one" : tactic =>
  `(tactic| (simp only [StableHlo.nullary_writes, StableHlo.unary_writes, StableHlo.binary_writes, StableHlo.reshape_writes,
      StableHlo.nary_writes, Finset.singleton_subset_iff, List.mem_toFinset]; exact List.mem_map_of_mem (by decide)))

/-! A `concatenate` of three operands is an `nary` operation over the literal family `![x, a, b]`. When it ends a line
whose earlier part leaves known contents at its three operands, the line leaves the operation's function of those
contents at its result. -/
section Nary3
variable {τ' : Topo} {sig' : RefSig} {Val : EltTy → Type} {x a b y : Ref sig' .tc}

theorem d_nary3_result
    (f : ((k : Fin 3) → ((![x, a, b] : Fin 3 → Ref sig' .tc) k).ty.Contents Val) → y.ty.Contents Val) (hxs hy)
    (V : Valuation τ' sig' Val) :
    (nary (τ := τ') ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem d_nary3_after (l : List (HloOp τ' sig' Val))
    (f : ((k : Fin 3) → ((![x, a, b] : Fin 3 → Ref sig' .tc) k).ty.Contents Val) → y.ty.Contents Val) (hxs hy)
    (W : Valuation τ' sig' Val) (vx : x.ty.Contents Val) (va : a.ty.Contents Val) (vb : b.ty.Contents Val)
    (hx : after l W (Proc.devRef .tc x) = vx) (ha : after l W (Proc.devRef .tc a) = va) (hb : after l W (Proc.devRef .tc b) = vb) :
    after (l ++ [nary (τ := τ') ![x, a, b] y f hxs hy]) W (Proc.devRef .tc y)
      = f (Fin.cons vx (Fin.cons va (Fin.cons vb (fun i => i.elim0)))) := by
  subst hx ha hb
  rw [StableHlo.after_append, after_cons, after_nil, d_nary3_result]
end Nary3

/-- Operations 1–3: the padding value (integer zero, converted) and the image padded by one on each side of its two spatial axes. -/
def d_w0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x64x128x128, .f32⟩) main_arg0) (TRef.of (T := ⟨S_, .f32⟩) main_call0_v0) (TRef.of (T := ⟨S8x64x130x130, .f32⟩) main_v0) (fun x v => pad S8x64x130x130 ![0, 0, 1, 1] ![0, 0, 1, 1] ![0, 0, 0, 0] x v pads_S8x64x128x128_S8x64x130x130_000_000_110_110 h_S_) ]

/-- The buffers the operations of `d_w0` write. -/
abbrev d_w0_W : List (Ref sig .tc) := [main_c, main_call0_v0, main_v0]

theorem d_w0_writes : (d_w0 : List (HloOp τ sig (Elt F))).Forall fun op => op.writes ⊆ (d_w0_W.map (Proc.devRef (τ := τ) .tc)).toFinset := by
  simp only [d_w0, List.Forall]
  refine ⟨?_, ?_, ?_⟩ <;> d_writes_one

/-- A buffer that `d_w0` does not write keeps its contents. -/
theorem d_w0_keep (W : Valuation τ sig (Elt F)) (r : Ref sig .tc) (h : r ∉ d_w0_W) :
    after d_w0 W (Proc.devRef .tc r) = W (Proc.devRef .tc r) :=
  after_of_writes_sub d_w0 W d_w0_writes h

theorem d_s0 (W : Valuation τ sig (Elt F)) :
    after d_w0 W (Proc.devRef .tc main_v0) = val_main_v0 (F := F) (W (Proc.devRef .tc main_arg0)) := by
  unfold d_w0
  after_results_simp
  rfl
/-- Operations 4–10: the window's first row — three column shifts of the padded image, each given a unit axis, concatenated. -/
def d_w1 : List (HloOp τ sig (Elt F)) :=
  [ unary main_v0 main_v1 ((extractStridedSlice S8x64x128x128 ![0, 0, 0, 0] · slices_S8x64x130x130_S8x64x128x128_0_0_0_0) : (⟨S8x64x130x130, .f32⟩ : BufTy).Contents (Elt F) → (⟨S8x64x128x128, .f32⟩ : BufTy).Contents (Elt F)),
    unary main_v0 main_v2 ((extractStridedSlice S8x64x128x128 ![0, 0, 0, 1] · slices_S8x64x130x130_S8x64x128x128_0_0_0_1) : (⟨S8x64x130x130, .f32⟩ : BufTy).Contents (Elt F) → (⟨S8x64x128x128, .f32⟩ : BufTy).Contents (Elt F)),
    unary main_v0 main_v3 ((extractStridedSlice S8x64x128x128 ![0, 0, 0, 2] · slices_S8x64x130x130_S8x64x128x128_0_0_0_2) : (⟨S8x64x130x130, .f32⟩ : BufTy).Contents (Elt F) → (⟨S8x64x128x128, .f32⟩ : BufTy).Contents (Elt F)),
    unary main_v1 main_v4 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v2 main_v5 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v3 main_v6 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    nary ![main_v4, main_v5, main_v6] main_v7 (fun u => concatenate S8x64x128x128x3 4 [⟨S8x64x128x128x1, u 0⟩, ⟨S8x64x128x128x1, u 1⟩, ⟨S8x64x128x128x1, u 2⟩] concatenates_S8x64x128x128x1_S8x64x128x128x1_S8x64x128x128x1_S8x64x128x128x3_d4) ]

/-- The buffers the operations of `d_w1` write. -/
abbrev d_w1_W : List (Ref sig .tc) := [main_v1, main_v2, main_v3, main_v4, main_v5, main_v6, main_v7]

theorem d_w1_writes : (d_w1 : List (HloOp τ sig (Elt F))).Forall fun op => op.writes ⊆ (d_w1_W.map (Proc.devRef (τ := τ) .tc)).toFinset := by
  simp only [d_w1, List.Forall]
  refine ⟨?_, ?_, ?_, ?_, ?_, ?_, ?_⟩ <;> d_writes_one

/-- A buffer that `d_w1` does not write keeps its contents. -/
theorem d_w1_keep (W : Valuation τ sig (Elt F)) (r : Ref sig .tc) (h : r ∉ d_w1_W) :
    after d_w1 W (Proc.devRef .tc r) = W (Proc.devRef .tc r) :=
  after_of_writes_sub d_w1 W d_w1_writes h

/-- `d_w1` without its last operation, the concatenation. -/
def d_p1 : List (HloOp τ sig (Elt F)) :=
  [ unary main_v0 main_v1 ((extractStridedSlice S8x64x128x128 ![0, 0, 0, 0] · slices_S8x64x130x130_S8x64x128x128_0_0_0_0) : (⟨S8x64x130x130, .f32⟩ : BufTy).Contents (Elt F) → (⟨S8x64x128x128, .f32⟩ : BufTy).Contents (Elt F)),
    unary main_v0 main_v2 ((extractStridedSlice S8x64x128x128 ![0, 0, 0, 1] · slices_S8x64x130x130_S8x64x128x128_0_0_0_1) : (⟨S8x64x130x130, .f32⟩ : BufTy).Contents (Elt F) → (⟨S8x64x128x128, .f32⟩ : BufTy).Contents (Elt F)),
    unary main_v0 main_v3 ((extractStridedSlice S8x64x128x128 ![0, 0, 0, 2] · slices_S8x64x130x130_S8x64x128x128_0_0_0_2) : (⟨S8x64x130x130, .f32⟩ : BufTy).Contents (Elt F) → (⟨S8x64x128x128, .f32⟩ : BufTy).Contents (Elt F)),
    unary main_v1 main_v4 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v2 main_v5 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v3 main_v6 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)) ]

/-- The last operation of `d_w1`: the concatenation. -/
def d_n1 : HloOp τ sig (Elt F) :=
  nary ![main_v4, main_v5, main_v6] main_v7 (fun u => concatenate S8x64x128x128x3 4 [⟨S8x64x128x128x1, u 0⟩, ⟨S8x64x128x128x1, u 1⟩, ⟨S8x64x128x128x1, u 2⟩] concatenates_S8x64x128x128x1_S8x64x128x128x1_S8x64x128x128x1_S8x64x128x128x3_d4)

theorem d_w1_eq : (d_w1 : List (HloOp τ sig (Elt F))) = d_p1 ++ [d_n1] := rfl

theorem d_s1 (W : Valuation τ sig (Elt F)) (x : (⟨S8x64x128x128, .f32⟩ : BufTy).Contents (Elt F)) (h_v0 : W (Proc.devRef .tc main_v0) = val_main_v0 (F := F) x) :
    after d_w1 W (Proc.devRef .tc main_v7) = val_main_v7 (F := F) x := by
  have e_v4 : after d_p1 W (Proc.devRef .tc main_v4) = val_main_v4 (F := F) x := by
    unfold d_p1
    after_results_simp
    simp only [h_v0]
    rfl
  have e_v5 : after d_p1 W (Proc.devRef .tc main_v5) = val_main_v5 (F := F) x := by
    unfold d_p1
    after_results_simp
    simp only [h_v0]
    rfl
  have e_v6 : after d_p1 W (Proc.devRef .tc main_v6) = val_main_v6 (F := F) x := by
    unfold d_p1
    after_results_simp
    simp only [h_v0]
    rfl
  rw [d_w1_eq]
  unfold d_n1
  exact (d_nary3_after d_p1 _ _ _ W _ _ _ e_v4 e_v5 e_v6).trans rfl
/-- Operations 11–17: the window's second row. -/
def d_w2 : List (HloOp τ sig (Elt F)) :=
  [ unary main_v0 main_v8 ((extractStridedSlice S8x64x128x128 ![0, 0, 1, 0] · slices_S8x64x130x130_S8x64x128x128_0_0_1_0) : (⟨S8x64x130x130, .f32⟩ : BufTy).Contents (Elt F) → (⟨S8x64x128x128, .f32⟩ : BufTy).Contents (Elt F)),
    unary main_v0 main_v9 ((extractStridedSlice S8x64x128x128 ![0, 0, 1, 1] · slices_S8x64x130x130_S8x64x128x128_0_0_1_1) : (⟨S8x64x130x130, .f32⟩ : BufTy).Contents (Elt F) → (⟨S8x64x128x128, .f32⟩ : BufTy).Contents (Elt F)),
    unary main_v0 main_v10 ((extractStridedSlice S8x64x128x128 ![0, 0, 1, 2] · slices_S8x64x130x130_S8x64x128x128_0_0_1_2) : (⟨S8x64x130x130, .f32⟩ : BufTy).Contents (Elt F) → (⟨S8x64x128x128, .f32⟩ : BufTy).Contents (Elt F)),
    unary main_v8 main_v11 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v9 main_v12 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v10 main_v13 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    nary ![main_v11, main_v12, main_v13] main_v14 (fun u => concatenate S8x64x128x128x3 4 [⟨S8x64x128x128x1, u 0⟩, ⟨S8x64x128x128x1, u 1⟩, ⟨S8x64x128x128x1, u 2⟩] concatenates_S8x64x128x128x1_S8x64x128x128x1_S8x64x128x128x1_S8x64x128x128x3_d4) ]

/-- The buffers the operations of `d_w2` write. -/
abbrev d_w2_W : List (Ref sig .tc) := [main_v8, main_v9, main_v10, main_v11, main_v12, main_v13, main_v14]

theorem d_w2_writes : (d_w2 : List (HloOp τ sig (Elt F))).Forall fun op => op.writes ⊆ (d_w2_W.map (Proc.devRef (τ := τ) .tc)).toFinset := by
  simp only [d_w2, List.Forall]
  refine ⟨?_, ?_, ?_, ?_, ?_, ?_, ?_⟩ <;> d_writes_one

/-- A buffer that `d_w2` does not write keeps its contents. -/
theorem d_w2_keep (W : Valuation τ sig (Elt F)) (r : Ref sig .tc) (h : r ∉ d_w2_W) :
    after d_w2 W (Proc.devRef .tc r) = W (Proc.devRef .tc r) :=
  after_of_writes_sub d_w2 W d_w2_writes h

/-- `d_w2` without its last operation, the concatenation. -/
def d_p2 : List (HloOp τ sig (Elt F)) :=
  [ unary main_v0 main_v8 ((extractStridedSlice S8x64x128x128 ![0, 0, 1, 0] · slices_S8x64x130x130_S8x64x128x128_0_0_1_0) : (⟨S8x64x130x130, .f32⟩ : BufTy).Contents (Elt F) → (⟨S8x64x128x128, .f32⟩ : BufTy).Contents (Elt F)),
    unary main_v0 main_v9 ((extractStridedSlice S8x64x128x128 ![0, 0, 1, 1] · slices_S8x64x130x130_S8x64x128x128_0_0_1_1) : (⟨S8x64x130x130, .f32⟩ : BufTy).Contents (Elt F) → (⟨S8x64x128x128, .f32⟩ : BufTy).Contents (Elt F)),
    unary main_v0 main_v10 ((extractStridedSlice S8x64x128x128 ![0, 0, 1, 2] · slices_S8x64x130x130_S8x64x128x128_0_0_1_2) : (⟨S8x64x130x130, .f32⟩ : BufTy).Contents (Elt F) → (⟨S8x64x128x128, .f32⟩ : BufTy).Contents (Elt F)),
    unary main_v8 main_v11 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v9 main_v12 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v10 main_v13 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)) ]

/-- The last operation of `d_w2`: the concatenation. -/
def d_n2 : HloOp τ sig (Elt F) :=
  nary ![main_v11, main_v12, main_v13] main_v14 (fun u => concatenate S8x64x128x128x3 4 [⟨S8x64x128x128x1, u 0⟩, ⟨S8x64x128x128x1, u 1⟩, ⟨S8x64x128x128x1, u 2⟩] concatenates_S8x64x128x128x1_S8x64x128x128x1_S8x64x128x128x1_S8x64x128x128x3_d4)

theorem d_w2_eq : (d_w2 : List (HloOp τ sig (Elt F))) = d_p2 ++ [d_n2] := rfl

theorem d_s2 (W : Valuation τ sig (Elt F)) (x : (⟨S8x64x128x128, .f32⟩ : BufTy).Contents (Elt F)) (h_v0 : W (Proc.devRef .tc main_v0) = val_main_v0 (F := F) x) :
    after d_w2 W (Proc.devRef .tc main_v14) = val_main_v14 (F := F) x := by
  have e_v11 : after d_p2 W (Proc.devRef .tc main_v11) = val_main_v11 (F := F) x := by
    unfold d_p2
    after_results_simp
    simp only [h_v0]
    rfl
  have e_v12 : after d_p2 W (Proc.devRef .tc main_v12) = val_main_v12 (F := F) x := by
    unfold d_p2
    after_results_simp
    simp only [h_v0]
    rfl
  have e_v13 : after d_p2 W (Proc.devRef .tc main_v13) = val_main_v13 (F := F) x := by
    unfold d_p2
    after_results_simp
    simp only [h_v0]
    rfl
  rw [d_w2_eq]
  unfold d_n2
  exact (d_nary3_after d_p2 _ _ _ W _ _ _ e_v11 e_v12 e_v13).trans rfl
/-- Operations 18–24: the window's third row. -/
def d_w3 : List (HloOp τ sig (Elt F)) :=
  [ unary main_v0 main_v15 ((extractStridedSlice S8x64x128x128 ![0, 0, 2, 0] · slices_S8x64x130x130_S8x64x128x128_0_0_2_0) : (⟨S8x64x130x130, .f32⟩ : BufTy).Contents (Elt F) → (⟨S8x64x128x128, .f32⟩ : BufTy).Contents (Elt F)),
    unary main_v0 main_v16 ((extractStridedSlice S8x64x128x128 ![0, 0, 2, 1] · slices_S8x64x130x130_S8x64x128x128_0_0_2_1) : (⟨S8x64x130x130, .f32⟩ : BufTy).Contents (Elt F) → (⟨S8x64x128x128, .f32⟩ : BufTy).Contents (Elt F)),
    unary main_v0 main_v17 ((extractStridedSlice S8x64x128x128 ![0, 0, 2, 2] · slices_S8x64x130x130_S8x64x128x128_0_0_2_2) : (⟨S8x64x130x130, .f32⟩ : BufTy).Contents (Elt F) → (⟨S8x64x128x128, .f32⟩ : BufTy).Contents (Elt F)),
    unary main_v15 main_v18 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v16 main_v19 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v17 main_v20 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    nary ![main_v18, main_v19, main_v20] main_v21 (fun u => concatenate S8x64x128x128x3 4 [⟨S8x64x128x128x1, u 0⟩, ⟨S8x64x128x128x1, u 1⟩, ⟨S8x64x128x128x1, u 2⟩] concatenates_S8x64x128x128x1_S8x64x128x128x1_S8x64x128x128x1_S8x64x128x128x3_d4) ]

/-- The buffers the operations of `d_w3` write. -/
abbrev d_w3_W : List (Ref sig .tc) := [main_v15, main_v16, main_v17, main_v18, main_v19, main_v20, main_v21]

theorem d_w3_writes : (d_w3 : List (HloOp τ sig (Elt F))).Forall fun op => op.writes ⊆ (d_w3_W.map (Proc.devRef (τ := τ) .tc)).toFinset := by
  simp only [d_w3, List.Forall]
  refine ⟨?_, ?_, ?_, ?_, ?_, ?_, ?_⟩ <;> d_writes_one

/-- A buffer that `d_w3` does not write keeps its contents. -/
theorem d_w3_keep (W : Valuation τ sig (Elt F)) (r : Ref sig .tc) (h : r ∉ d_w3_W) :
    after d_w3 W (Proc.devRef .tc r) = W (Proc.devRef .tc r) :=
  after_of_writes_sub d_w3 W d_w3_writes h

/-- `d_w3` without its last operation, the concatenation. -/
def d_p3 : List (HloOp τ sig (Elt F)) :=
  [ unary main_v0 main_v15 ((extractStridedSlice S8x64x128x128 ![0, 0, 2, 0] · slices_S8x64x130x130_S8x64x128x128_0_0_2_0) : (⟨S8x64x130x130, .f32⟩ : BufTy).Contents (Elt F) → (⟨S8x64x128x128, .f32⟩ : BufTy).Contents (Elt F)),
    unary main_v0 main_v16 ((extractStridedSlice S8x64x128x128 ![0, 0, 2, 1] · slices_S8x64x130x130_S8x64x128x128_0_0_2_1) : (⟨S8x64x130x130, .f32⟩ : BufTy).Contents (Elt F) → (⟨S8x64x128x128, .f32⟩ : BufTy).Contents (Elt F)),
    unary main_v0 main_v17 ((extractStridedSlice S8x64x128x128 ![0, 0, 2, 2] · slices_S8x64x130x130_S8x64x128x128_0_0_2_2) : (⟨S8x64x130x130, .f32⟩ : BufTy).Contents (Elt F) → (⟨S8x64x128x128, .f32⟩ : BufTy).Contents (Elt F)),
    unary main_v15 main_v18 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v16 main_v19 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)),
    unary main_v17 main_v20 (broadcastInDim S8x64x128x128x1 ![0, 1, 2, 3] bcast_S8x64x128x128_S8x64x128x128x1_0_1_2_3 : (⟨S8x64x128x128, .f32⟩ : BufTy).Contents (Elt F) → (⟨S8x64x128x128x1, .f32⟩ : BufTy).Contents (Elt F)) ]

/-- The last operation of `d_w3`: the concatenation. -/
def d_n3 : HloOp τ sig (Elt F) :=
  nary ![main_v18, main_v19, main_v20] main_v21 (fun u => concatenate S8x64x128x128x3 4 [⟨S8x64x128x128x1, u 0⟩, ⟨S8x64x128x128x1, u 1⟩, ⟨S8x64x128x128x1, u 2⟩] concatenates_S8x64x128x128x1_S8x64x128x128x1_S8x64x128x128x1_S8x64x128x128x3_d4)

theorem d_w3_eq : (d_w3 : List (HloOp τ sig (Elt F))) = d_p3 ++ [d_n3] := rfl

theorem d_s3 (W : Valuation τ sig (Elt F)) (x : (⟨S8x64x128x128, .f32⟩ : BufTy).Contents (Elt F)) (h_v0 : W (Proc.devRef .tc main_v0) = val_main_v0 (F := F) x) :
    after d_w3 W (Proc.devRef .tc main_v21) = val_main_v21 (F := F) x := by
  have e_v18 : after d_p3 W (Proc.devRef .tc main_v18) = val_main_v18 (F := F) x := by
    unfold d_p3
    after_results_simp
    simp only [h_v0]
    rfl
  have e_v19 : after d_p3 W (Proc.devRef .tc main_v19) = val_main_v19 (F := F) x := by
    unfold d_p3
    after_results_simp
    simp only [h_v0]
    rfl
  have e_v20 : after d_p3 W (Proc.devRef .tc main_v20) = val_main_v20 (F := F) x := by
    unfold d_p3
    after_results_simp
    simp only [h_v0]
    rfl
  rw [d_w3_eq]
  unfold d_n3
  exact (d_nary3_after d_p3 _ _ _ W _ _ _ e_v18 e_v19 e_v20).trans rfl
/-- Operations 25–28: the three rows, each given a unit axis, concatenated into the patches. -/
def d_w4 : List (HloOp τ sig (Elt F)) :=
  [ unary main_v7 main_v22 (broadcastInDim S8x64x128x128x1x3 ![0, 1, 2, 3, 5] bcast_S8x64x128x128x3_S8x64x128x128x1x3_0_1_2_3_5 : (⟨S8x64x128x128x3, .f32⟩ : BufTy).Contents (Elt F) → (⟨S8x64x128x128x1x3, .f32⟩ : BufTy).Contents (Elt F)),
    unary main_v14 main_v23 (broadcastInDim S8x64x128x128x1x3 ![0, 1, 2, 3, 5] bcast_S8x64x128x128x3_S8x64x128x128x1x3_0_1_2_3_5 : (⟨S8x64x128x128x3, .f32⟩ : BufTy).Contents (Elt F) → (⟨S8x64x128x128x1x3, .f32⟩ : BufTy).Contents (Elt F)),
    unary main_v21 main_v24 (broadcastInDim S8x64x128x128x1x3 ![0, 1, 2, 3, 5] bcast_S8x64x128x128x3_S8x64x128x128x1x3_0_1_2_3_5 : (⟨S8x64x128x128x3, .f32⟩ : BufTy).Contents (Elt F) → (⟨S8x64x128x128x1x3, .f32⟩ : BufTy).Contents (Elt F)),
    nary ![main_v22, main_v23, main_v24] main_v25 (fun u => concatenate S8x64x128x128x3x3 4 [⟨S8x64x128x128x1x3, u 0⟩, ⟨S8x64x128x128x1x3, u 1⟩, ⟨S8x64x128x128x1x3, u 2⟩] concatenates_S8x64x128x128x1x3_S8x64x128x128x1x3_S8x64x128x128x1x3_S8x64x128x128x3x3_d4) ]

/-- The buffers the operations of `d_w4` write. -/
abbrev d_w4_W : List (Ref sig .tc) := [main_v22, main_v23, main_v24, main_v25]

theorem d_w4_writes : (d_w4 : List (HloOp τ sig (Elt F))).Forall fun op => op.writes ⊆ (d_w4_W.map (Proc.devRef (τ := τ) .tc)).toFinset := by
  simp only [d_w4, List.Forall]
  refine ⟨?_, ?_, ?_, ?_⟩ <;> d_writes_one

/-- A buffer that `d_w4` does not write keeps its contents. -/
theorem d_w4_keep (W : Valuation τ sig (Elt F)) (r : Ref sig .tc) (h : r ∉ d_w4_W) :
    after d_w4 W (Proc.devRef .tc r) = W (Proc.devRef .tc r) :=
  after_of_writes_sub d_w4 W d_w4_writes h

/-- `d_w4` without its last operation, the concatenation. -/
def d_p4 : List (HloOp τ sig (Elt F)) :=
  [ unary main_v7 main_v22 (broadcastInDim S8x64x128x128x1x3 ![0, 1, 2, 3, 5] bcast_S8x64x128x128x3_S8x64x128x128x1x3_0_1_2_3_5 : (⟨S8x64x128x128x3, .f32⟩ : BufTy).Contents (Elt F) → (⟨S8x64x128x128x1x3, .f32⟩ : BufTy).Contents (Elt F)),
    unary main_v14 main_v23 (broadcastInDim S8x64x128x128x1x3 ![0, 1, 2, 3, 5] bcast_S8x64x128x128x3_S8x64x128x128x1x3_0_1_2_3_5 : (⟨S8x64x128x128x3, .f32⟩ : BufTy).Contents (Elt F) → (⟨S8x64x128x128x1x3, .f32⟩ : BufTy).Contents (Elt F)),
    unary main_v21 main_v24 (broadcastInDim S8x64x128x128x1x3 ![0, 1, 2, 3, 5] bcast_S8x64x128x128x3_S8x64x128x128x1x3_0_1_2_3_5 : (⟨S8x64x128x128x3, .f32⟩ : BufTy).Contents (Elt F) → (⟨S8x64x128x128x1x3, .f32⟩ : BufTy).Contents (Elt F)) ]

/-- The last operation of `d_w4`: the concatenation. -/
def d_n4 : HloOp τ sig (Elt F) :=
  nary ![main_v22, main_v23, main_v24] main_v25 (fun u => concatenate S8x64x128x128x3x3 4 [⟨S8x64x128x128x1x3, u 0⟩, ⟨S8x64x128x128x1x3, u 1⟩, ⟨S8x64x128x128x1x3, u 2⟩] concatenates_S8x64x128x128x1x3_S8x64x128x128x1x3_S8x64x128x128x1x3_S8x64x128x128x3x3_d4)

theorem d_w4_eq : (d_w4 : List (HloOp τ sig (Elt F))) = d_p4 ++ [d_n4] := rfl

theorem d_s4 (W : Valuation τ sig (Elt F)) (x : (⟨S8x64x128x128, .f32⟩ : BufTy).Contents (Elt F)) (h_v7 : W (Proc.devRef .tc main_v7) = val_main_v7 (F := F) x) (h_v14 : W (Proc.devRef .tc main_v14) = val_main_v14 (F := F) x) (h_v21 : W (Proc.devRef .tc main_v21) = val_main_v21 (F := F) x) :
    after d_w4 W (Proc.devRef .tc main_v25) = val_main_v25 (F := F) x := by
  have e_v22 : after d_p4 W (Proc.devRef .tc main_v22) = val_main_v22 (F := F) x := by
    unfold d_p4
    after_results_simp
    simp only [h_v7, h_v14, h_v21]
    rfl
  have e_v23 : after d_p4 W (Proc.devRef .tc main_v23) = val_main_v23 (F := F) x := by
    unfold d_p4
    after_results_simp
    simp only [h_v7, h_v14, h_v21]
    rfl
  have e_v24 : after d_p4 W (Proc.devRef .tc main_v24) = val_main_v24 (F := F) x := by
    unfold d_p4
    after_results_simp
    simp only [h_v7, h_v14, h_v21]
    rfl
  rw [d_w4_eq]
  unfold d_n4
  exact (d_nary3_after d_p4 _ _ _ W _ _ _ e_v22 e_v23 e_v24).trans rfl
/-- Operations 29–34: the two row-major re-readings of the patches, the image transposed and broadcast over the window, and the sum of the first re-reading with it. -/
def d_w5 : List (HloOp τ sig (Elt F)) :=
  [ reshape main_v25 main_v26 rfl shapeCasts_S8x64x128x128x3x3_S8x16384x3x3x64,
    reshape main_v25 main_v27 rfl shapeCasts_S8x64x128x128x3x3_S8x16384x64x3x3,
    unary main_arg0 main_v28 ((transpose S8x128x128x64 [0, 2, 3, 1] · transposes_S8x64x128x128_S8x128x128x64_0_2_3_1) : (⟨S8x64x128x128, .f32⟩ : BufTy).Contents (Elt F) → (⟨S8x128x128x64, .f32⟩ : BufTy).Contents (Elt F)),
    reshape main_v28 main_v29 rfl shapeCasts_S8x128x128x64_S8x16384x1x1x64,
    unary main_v29 main_v30 (broadcastInDim S8x16384x3x3x64 ![0, 1, 2, 3, 4] bcast_S8x16384x1x1x64_S8x16384x3x3x64_0_1_2_3_4 : (⟨S8x16384x1x1x64, .f32⟩ : BufTy).Contents (Elt F) → (⟨S8x16384x3x3x64, .f32⟩ : BufTy).Contents (Elt F)),
    binary main_v26 main_v30 main_v31 (addf : (⟨S8x16384x3x3x64, .f32⟩ : BufTy).Contents (Elt F) → (⟨S8x16384x3x3x64, .f32⟩ : BufTy).Contents (Elt F) → (⟨S8x16384x3x3x64, .f32⟩ : BufTy).Contents (Elt F)) ]

/-- The buffers the operations of `d_w5` write. -/
abbrev d_w5_W : List (Ref sig .tc) := [main_v26, main_v27, main_v28, main_v29, main_v30, main_v31]

theorem d_w5_writes : (d_w5 : List (HloOp τ sig (Elt F))).Forall fun op => op.writes ⊆ (d_w5_W.map (Proc.devRef (τ := τ) .tc)).toFinset := by
  simp only [d_w5, List.Forall]
  refine ⟨?_, ?_, ?_, ?_, ?_, ?_⟩ <;> d_writes_one

/-- A buffer that `d_w5` does not write keeps its contents. -/
theorem d_w5_keep (W : Valuation τ sig (Elt F)) (r : Ref sig .tc) (h : r ∉ d_w5_W) :
    after d_w5 W (Proc.devRef .tc r) = W (Proc.devRef .tc r) :=
  after_of_writes_sub d_w5 W d_w5_writes h

theorem d_s5_v27 (W : Valuation τ sig (Elt F)) (x : (⟨S8x64x128x128, .f32⟩ : BufTy).Contents (Elt F)) (h_arg0 : W (Proc.devRef .tc main_arg0) = x) (h_v25 : W (Proc.devRef .tc main_v25) = val_main_v25 (F := F) x) :
    after d_w5 W (Proc.devRef .tc main_v27) = val_main_v27 (F := F) x := by
  unfold d_w5
  after_results_simp
  simp only [h_arg0, h_v25]
  rfl

theorem d_s5_v31 (W : Valuation τ sig (Elt F)) (x : (⟨S8x64x128x128, .f32⟩ : BufTy).Contents (Elt F)) (h_arg0 : W (Proc.devRef .tc main_arg0) = x) (h_v25 : W (Proc.devRef .tc main_v25) = val_main_v25 (F := F) x) :
    after d_w5 W (Proc.devRef .tc main_v31) = val_main_v31 (F := F) x := by
  unfold d_w5
  after_results_simp
  simp only [h_arg0, h_v25]
  rfl
/-- Operations 35–58: the channel sum, the softmax along the pixel axis and its sum over the window, the window sum of the second re-reading, their sum, and the final re-reading. -/
def d_w6 : List (HloOp τ sig (Elt F)) :=
  [ nullary main_cst (constant S_ .f32 0x00000000#32),
    binary main_v31 main_cst main_v32 ((fun x v => Host.reduceAdd x v reducesTo_S8x16384x3x3x64_S8x16384x3x3_d4 h_S_) : (⟨S8x16384x3x3x64, .f32⟩ : BufTy).Contents (Elt F) → (⟨S_, .f32⟩ : BufTy).Contents (Elt F) → (⟨S8x16384x3x3, .f32⟩ : BufTy).Contents (Elt F)),
    nullary main_cst_0 (constant S_ .f32 0xFF800000#32),
    binary main_v32 main_cst_0 main_v33 ((fun x v => Host.reduce FloatOps.maximumf x v reducesTo_S8x16384x3x3_S8x3x3_d1 h_S_) : (⟨S8x16384x3x3, .f32⟩ : BufTy).Contents (Elt F) → (⟨S_, .f32⟩ : BufTy).Contents (Elt F) → (⟨S8x3x3, .f32⟩ : BufTy).Contents (Elt F)),
    nullary main_cst_1 (constant S_ .f32 0xFF800000#32),
    unary main_cst_1 main_v34 (broadcastInDim S8x3x3 ![] bcast_S_S8x3x3 : (⟨S_, .f32⟩ : BufTy).Contents (Elt F) → (⟨S8x3x3, .f32⟩ : BufTy).Contents (Elt F)),
    binary main_v34 main_v33 main_v35 (maximumf : (⟨S8x3x3, .f32⟩ : BufTy).Contents (Elt F) → (⟨S8x3x3, .f32⟩ : BufTy).Contents (Elt F) → (⟨S8x3x3, .f32⟩ : BufTy).Contents (Elt F)),
    unary main_v35 main_v36 (broadcastInDim S8x1x3x3 ![0, 2, 3] bcast_S8x3x3_S8x1x3x3_0_2_3 : (⟨S8x3x3, .f32⟩ : BufTy).Contents (Elt F) → (⟨S8x1x3x3, .f32⟩ : BufTy).Contents (Elt F)),
    unary main_v36 main_v37 (broadcastInDim S8x16384x3x3 ![0, 1, 2, 3] bcast_S8x1x3x3_S8x16384x3x3_0_1_2_3 : (⟨S8x1x3x3, .f32⟩ : BufTy).Contents (Elt F) → (⟨S8x16384x3x3, .f32⟩ : BufTy).Contents (Elt F)),
    binary main_v32 main_v37 main_v38 (subf : (⟨S8x16384x3x3, .f32⟩ : BufTy).Contents (Elt F) → (⟨S8x16384x3x3, .f32⟩ : BufTy).Contents (Elt F) → (⟨S8x16384x3x3, .f32⟩ : BufTy).Contents (Elt F)),
    unary main_v38 main_v39 (Host.exp : (⟨S8x16384x3x3, .f32⟩ : BufTy).Contents (Elt F) → (⟨S8x16384x3x3, .f32⟩ : BufTy).Contents (Elt F)),
    nullary main_cst_2 (constant S_ .f32 0x00000000#32),
    binary main_v39 main_cst_2 main_v40 ((fun x v => Host.reduceAdd x v reducesTo_S8x16384x3x3_S8x3x3_d1 h_S_) : (⟨S8x16384x3x3, .f32⟩ : BufTy).Contents (Elt F) → (⟨S_, .f32⟩ : BufTy).Contents (Elt F) → (⟨S8x3x3, .f32⟩ : BufTy).Contents (Elt F)),
    unary main_v40 main_v41 (broadcastInDim S8x1x3x3 ![0, 2, 3] bcast_S8x3x3_S8x1x3x3_0_2_3 : (⟨S8x3x3, .f32⟩ : BufTy).Contents (Elt F) → (⟨S8x1x3x3, .f32⟩ : BufTy).Contents (Elt F)),
    unary main_v41 main_v42 (broadcastInDim S8x16384x3x3 ![0, 1, 2, 3] bcast_S8x1x3x3_S8x16384x3x3_0_1_2_3 : (⟨S8x1x3x3, .f32⟩ : BufTy).Contents (Elt F) → (⟨S8x16384x3x3, .f32⟩ : BufTy).Contents (Elt F)),
    binary main_v39 main_v42 main_v43 (Host.divf : (⟨S8x16384x3x3, .f32⟩ : BufTy).Contents (Elt F) → (⟨S8x16384x3x3, .f32⟩ : BufTy).Contents (Elt F) → (⟨S8x16384x3x3, .f32⟩ : BufTy).Contents (Elt F)),
    nullary main_cst_3 (constant S_ .f32 0x00000000#32),
    binary main_v43 main_cst_3 main_v44 ((fun x v => Host.reduceAdd x v reducesTo_S8x16384x3x3_S8x16384_d2_3 h_S_) : (⟨S8x16384x3x3, .f32⟩ : BufTy).Contents (Elt F) → (⟨S_, .f32⟩ : BufTy).Contents (Elt F) → (⟨S8x16384, .f32⟩ : BufTy).Contents (Elt F)),
    unary main_v44 main_v45 (broadcastInDim S8x16384x1 ![0, 1] bcast_S8x16384_S8x16384x1_0_1 : (⟨S8x16384, .f32⟩ : BufTy).Contents (Elt F) → (⟨S8x16384x1, .f32⟩ : BufTy).Contents (Elt F)),
    nullary main_cst_4 (constant S_ .f32 0x00000000#32),
    binary main_v27 main_cst_4 main_v46 ((fun x v => Host.reduceAdd x v reducesTo_S8x16384x64x3x3_S8x16384x64_d3_4 h_S_) : (⟨S8x16384x64x3x3, .f32⟩ : BufTy).Contents (Elt F) → (⟨S_, .f32⟩ : BufTy).Contents (Elt F) → (⟨S8x16384x64, .f32⟩ : BufTy).Contents (Elt F)),
    unary main_v45 main_v47 (broadcastInDim S8x16384x64 ![0, 1, 2] bcast_S8x16384x1_S8x16384x64_0_1_2 : (⟨S8x16384x1, .f32⟩ : BufTy).Contents (Elt F) → (⟨S8x16384x64, .f32⟩ : BufTy).Contents (Elt F)),
    binary main_v47 main_v46 main_v48 (addf : (⟨S8x16384x64, .f32⟩ : BufTy).Contents (Elt F) → (⟨S8x16384x64, .f32⟩ : BufTy).Contents (Elt F) → (⟨S8x16384x64, .f32⟩ : BufTy).Contents (Elt F)),
    reshape main_v48 main_v49 rfl shapeCasts_S8x16384x64_S8x64x128x128 ]

/-- The buffers the operations of `d_w6` write. -/
abbrev d_w6_W : List (Ref sig .tc) := [main_cst, main_v32, main_cst_0, main_v33, main_cst_1, main_v34, main_v35, main_v36, main_v37, main_v38, main_v39, main_cst_2, main_v40, main_v41, main_v42, main_v43, main_cst_3, main_v44, main_v45, main_cst_4, main_v46, main_v47, main_v48, main_v49]

theorem d_w6_writes : (d_w6 : List (HloOp τ sig (Elt F))).Forall fun op => op.writes ⊆ (d_w6_W.map (Proc.devRef (τ := τ) .tc)).toFinset := by
  simp only [d_w6, List.Forall]
  refine ⟨?_, ?_, ?_, ?_, ?_, ?_, ?_, ?_, ?_, ?_, ?_, ?_, ?_, ?_, ?_, ?_, ?_, ?_, ?_, ?_, ?_, ?_, ?_, ?_⟩ <;> d_writes_one

/-- A buffer that `d_w6` does not write keeps its contents. -/
theorem d_w6_keep (W : Valuation τ sig (Elt F)) (r : Ref sig .tc) (h : r ∉ d_w6_W) :
    after d_w6 W (Proc.devRef .tc r) = W (Proc.devRef .tc r) :=
  after_of_writes_sub d_w6 W d_w6_writes h

theorem d_s6_v49 (W : Valuation τ sig (Elt F)) (x : (⟨S8x64x128x128, .f32⟩ : BufTy).Contents (Elt F)) (h_v27 : W (Proc.devRef .tc main_v27) = val_main_v27 (F := F) x) (h_v31 : W (Proc.devRef .tc main_v31) = val_main_v31 (F := F) x) :
    after d_w6 W (Proc.devRef .tc main_v49) = val_main_v49 (F := F) x := by
  unfold d_w6
  after_results_simp
  simp only [h_v27, h_v31]
  rfl

set_option maxRecDepth 8192 in
/-- The 58 operations are the seven lines in a row. -/
theorem d_ops_split : (ops : List (HloOp τ sig (Elt F))) = d_w0 ++ (d_w1 ++ (d_w2 ++ (d_w3 ++ (d_w4 ++ (d_w5 ++ d_w6))))) := rfl

/-- The result buffer after the 58 operations, from any contents `W`: the last stage of the argument's contents. Each
    line is read over the contents the lines before it leave; a stage that a later line reads is carried there by the
    fact that the lines in between do not write its buffer. -/
theorem d_fold_v49 (W : Valuation τ sig (Elt F)) :
    after ops W (Proc.devRef .tc main_v49) = val_main_v49 (F := F) (W (Proc.devRef .tc main_arg0)) := by
  rw [d_ops_split, StableHlo.after_append, StableHlo.after_append, StableHlo.after_append, StableHlo.after_append,
    StableHlo.after_append, StableHlo.after_append]
  generalize hx : W (Proc.devRef .tc main_arg0) = x
  -- after line 0
  have a1 : after d_w0 W (Proc.devRef .tc main_arg0) = x := (d_w0_keep W main_arg0 (by decide)).trans hx
  have z1 : after d_w0 W (Proc.devRef .tc main_v0) = val_main_v0 (F := F) x := hx ▸ d_s0 W
  generalize after d_w0 W = V1 at a1 z1 ⊢
  -- after line 1
  have a2 : after d_w1 V1 (Proc.devRef .tc main_arg0) = x := (d_w1_keep V1 main_arg0 (by decide)).trans a1
  have z2 : after d_w1 V1 (Proc.devRef .tc main_v0) = val_main_v0 (F := F) x := (d_w1_keep V1 main_v0 (by decide)).trans z1
  have p2 : after d_w1 V1 (Proc.devRef .tc main_v7) = val_main_v7 (F := F) x := d_s1 V1 x z1
  generalize after d_w1 V1 = V2 at a2 z2 p2 ⊢
  -- after line 2
  have a3 : after d_w2 V2 (Proc.devRef .tc main_arg0) = x := (d_w2_keep V2 main_arg0 (by decide)).trans a2
  have z3 : after d_w2 V2 (Proc.devRef .tc main_v0) = val_main_v0 (F := F) x := (d_w2_keep V2 main_v0 (by decide)).trans z2
  have p3 : after d_w2 V2 (Proc.devRef .tc main_v7) = val_main_v7 (F := F) x := (d_w2_keep V2 main_v7 (by decide)).trans p2
  have q3 : after d_w2 V2 (Proc.devRef .tc main_v14) = val_main_v14 (F := F) x := d_s2 V2 x z2
  generalize after d_w2 V2 = V3 at a3 z3 p3 q3 ⊢
  -- after line 3
  have a4 : after d_w3 V3 (Proc.devRef .tc main_arg0) = x := (d_w3_keep V3 main_arg0 (by decide)).trans a3
  have p4 : after d_w3 V3 (Proc.devRef .tc main_v7) = val_main_v7 (F := F) x := (d_w3_keep V3 main_v7 (by decide)).trans p3
  have q4 : after d_w3 V3 (Proc.devRef .tc main_v14) = val_main_v14 (F := F) x := (d_w3_keep V3 main_v14 (by decide)).trans q3
  have r4 : after d_w3 V3 (Proc.devRef .tc main_v21) = val_main_v21 (F := F) x := d_s3 V3 x z3
  generalize after d_w3 V3 = V4 at a4 p4 q4 r4 ⊢
  -- after line 4
  have a5 : after d_w4 V4 (Proc.devRef .tc main_arg0) = x := (d_w4_keep V4 main_arg0 (by decide)).trans a4
  have s5 : after d_w4 V4 (Proc.devRef .tc main_v25) = val_main_v25 (F := F) x := d_s4 V4 x p4 q4 r4
  generalize after d_w4 V4 = V5 at a5 s5 ⊢
  -- after line 5
  have t6 : after d_w5 V5 (Proc.devRef .tc main_v27) = val_main_v27 (F := F) x := d_s5_v27 V5 x a5 s5
  have u6 : after d_w5 V5 (Proc.devRef .tc main_v31) = val_main_v31 (F := F) x := d_s5_v31 V5 x a5 s5
  generalize after d_w5 V5 = V6 at t6 u6 ⊢
  -- after line 6
  exact d_s6_v49 V6 x t6 u6

/-- No operation writes the argument's buffer. -/
theorem d_fold_arg0 (W : Valuation τ sig (Elt F)) :
    after ops W (Proc.devRef .tc main_arg0) = W (Proc.devRef .tc main_arg0) := by
  rw [d_ops_split, StableHlo.after_append, StableHlo.after_append, StableHlo.after_append, StableHlo.after_append,
    StableHlo.after_append, StableHlo.after_append]
  rw [d_w6_keep _ main_arg0 (by decide), d_w5_keep _ main_arg0 (by decide), d_w4_keep _ main_arg0 (by decide),
    d_w3_keep _ main_arg0 (by decide), d_w2_keep _ main_arg0 (by decide), d_w1_keep _ main_arg0 (by decide),
    d_w0_keep _ main_arg0 (by decide)]

/-- On every device, from any memory with zero counters: every weakly fair execution of the reference terminates with
    its result buffer at the last stage of the argument's launch contents, and the argument's buffer unchanged. -/
theorem ref_run (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread _ _).loc Cert.ReferenceIdeal.main_v49) = Cert.ReferenceIdeal.ReadP.val_main_v49 (F := F) (m ((c.tc : Thread _ _).loc Cert.ReferenceIdeal.main_arg0))
      ∧ r.2.mem ((c.tc : Thread _ _).loc Cert.ReferenceIdeal.main_arg0) = m ((c.tc : Thread _ _).loc Cert.ReferenceIdeal.main_arg0)) :=
  (θ_run defs _ _).mono
    (fun _ h c => ⟨(h c main_v49).trans (d_fold_v49 (launchContents m c)), (h c main_arg0).trans (d_fold_arg0 (launchContents m c))⟩)
    (run_raw m ρ)

end Cert.RefFold

end
-- ==== Proof.KDefs.lean ====
/-
  The two kernels of the program, each at a parameter `V` (the buffer contents when its region is entered):
  a window's block at a grid point, what the body leaves in the output window's buffer, and the pipeline's proof data.

  Region 0 (grid 8 x 16): at point t the body reads a [1,1024,9,64] block of `left` and a [1,1024,64] block of `mid`
  and stores, whole, the [1,1024,9] block of their channel sums. Region 1 (grid 8 x 64): it reads a [1,256,64,9] block
  of `right` and a [1,256,1] block of the softmax sums and stores, whole, the [1,256,64] block of window sums plus
  softmax sum. Both bodies also load their output buffer and never use the value. Stated for any float instance.
-/
import proofs.«112301_j67808943669345_2_alg».proof.Proof.Gen.KernelIdeal.Launch
import proofs.«112301_j67808943669345_2_alg».proof.Proof.Gen.KernelIdeal.Skeleton
import proofs.«112301_j67808943669345_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0: the channel sums -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's three accesses, each the whole staging buffer. -/
abbrev r0_0 : Rect S1x1024x9x64 := Rect.unit (s := S1x1024x9x64) ![0, 0, 0, 0] S1x1024x9x64.size inb_S1x1024x9x64_S1x1024x9x64_0_0_0_0
abbrev r0_1 : Rect S1x1024x64 := Rect.unit (s := S1x1024x64) ![0, 0, 0] S1x1024x64.size inb_S1x1024x64_S1x1024x64_0_0_0
abbrev r0_2 : Rect S1x1024x9 := Rect.unit (s := S1x1024x9) ![0, 0, 0] S1x1024x9.size inb_S1x1024x9_S1x1024x9_0_0_0

/-- The output window's buffer after the body, from the two input blocks: its one store. -/
def out0_2 (x0 : Vec F S1x1024x9x64 .f32) (x1 : Vec F S1x1024x64 .f32) : Vec F S1x1024x9 .f32 :=
  View.canon [⟨r0_2, k0_pay1 (View.ld x0 r0_0) (View.ld x1 r0_1)⟩]

/-- The pipeline's proof data on core `c`: the arrays as the region finds them; after the body each input's buffer
    at its block and the output's at `out0_2` of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the window sums -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x256x64x9 := Rect.unit (s := S1x256x64x9) ![0, 0, 0, 0] S1x256x64x9.size inb_S1x256x64x9_S1x256x64x9_0_0_0_0
abbrev r1_1 : Rect S1x256x1 := Rect.unit (s := S1x256x1) ![0, 0, 0] S1x256x1.size inb_S1x256x1_S1x256x1_0_0_0
abbrev r1_2 : Rect S1x256x64 := Rect.unit (s := S1x256x64) ![0, 0, 0] S1x256x64.size inb_S1x256x64_S1x256x64_0_0_0

/-- The output window's buffer after the body, from the two input blocks: its one store. -/
def out1_2 (x0 : Vec F S1x256x64x9 .f32) (x1 : Vec F S1x256x1 .f32) : Vec F S1x256x64 .f32 :=
  View.canon [⟨r1_2, k1_pay1 (View.ld x0 r1_0) (View.ld x1 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.KernelIdeal.Hand

end
-- ==== Proof.KBody.lean ====
/-
  The two kernel bodies as the pipeline calls them. For each region, at the buffer contents `V` it is entered
  with: each input window's current staging buffer holds that window's block at every grid point; the single
  store of the body covers the output window's staging buffer; the body, run on whole staging buffers holding the
  two input blocks, leaves the inputs as they were and the output at the stored payload (it also loads the output
  buffer first and never uses that value); and from these the obligation the pipeline asks of its body at every
  point. Stated for any float instance.
-/
import proofs.«112301_j67808943669345_2_alg».proof.Proof.KDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Input window 0's current staging buffer holds its block at every point, fetched there or not: the window is
    fetched at every point and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The same for input window 1. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The body's one store is the whole output buffer, so it covers it. -/
theorem cover0_2 (p0 : Vec F S1x1024x9 .f32) (y : S1x1024x9.Idx) :
    ∃ pc ∈ ([⟨r0_2, p0⟩] : List (View.Piece (Elt F) S1x1024x9 .f32)), y ∈ pc.1.set :=
  View.cover_of_tiled [⟨r0_2, p0⟩] S1x1024x9.size (by rfl) y

set_option maxHeartbeats 1000000 in
/-- The body on whole staging buffers, the inputs' at contents `x0`, `x1` and the output's at anything, runs to the
    continuation holding the inputs as they were and the output at `out0_2 x0 x1`: three loads (the third, of the
    output buffer, is never used) and one store of the payload over the whole output buffer. -/
theorem sound_kernel0 (c : Dev nD) (E : Set ℕ) (i : grid0.Coords)
    (arg2 : Memref sig .tc .vmem S1x1024x9x64 .f32) (harg2 : arg2.IsWhole)
    (arg3 : Memref sig .tc .vmem S1x1024x64 .f32) (harg3 : arg3.IsWhole)
    (arg4 : Memref sig .tc .vmem S1x1024x9 .f32) (harg4 : arg4.IsWhole)
    (x0 : Vec F S1x1024x9x64 .f32) (x1 : Vec F S1x1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__kernel_channel_sum i arg2 harg2 arg3 harg3 arg4 harg4) K := by
  simp only [cc0__kernel_channel_sum_eq_skeleton]; unfold cc0__kernel_channel_sum_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' staging buffers hold their blocks, so `sound_kernel0` applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! ## Region 1 -/

/-- Input window 0's current staging buffer holds its block at every point, fetched there or not: the window is
    fetched at every point and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The same for input window 1. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The body's one store is the whole output buffer, so it covers it. -/
theorem cover1_2 (p0 : Vec F S1x256x64 .f32) (y : S1x256x64.Idx) :
    ∃ pc ∈ ([⟨r1_2, p0⟩] : List (View.Piece (Elt F) S1x256x64 .f32)), y ∈ pc.1.set :=
  View.cover_of_tiled [⟨r1_2, p0⟩] S1x256x64.size (by rfl) y

set_option maxHeartbeats 1000000 in
/-- The body on whole staging buffers, the inputs' at contents `x0`, `x1` and the output's at anything, runs to the
    continuation holding the inputs as they were and the output at `out1_2 x0 x1`: three loads (the third, of the
    output buffer, is never used) and one store of the payload over the whole output buffer. -/
theorem sound_kernel1 (c : Dev nD) (E : Set ℕ) (i : grid1.Coords)
    (arg2 : Memref sig .tc .vmem S1x256x64x9 .f32) (harg2 : arg2.IsWhole)
    (arg3 : Memref sig .tc .vmem S1x256x1 .f32) (harg3 : arg3.IsWhole)
    (arg4 : Memref sig .tc .vmem S1x256x64 .f32) (harg4 : arg4.IsWhole)
    (x0 : Vec F S1x256x64x9 .f32) (x1 : Vec F S1x256x1 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__kernel_window_sum i arg2 harg2 arg3 harg3 arg4 harg4) K := by
  simp only [cc1__kernel_window_sum_eq_skeleton]; unfold cc1__kernel_window_sum_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' staging buffers hold their blocks, so `sound_kernel1` applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The kernel program's run. @main is seven items: three host stretches, region 0, the softmax stretch, region 1, the
  last reshape. Between two items a core holds every unscoped buffer at a valuation: the launch memory, folded through
  the host stretches, updated at a region's result array by what that region's write-backs leave. Each region is a
  segment whose arrays are split out of the unscoped buffers at its entry and put back at its exit; the generator
  register rides along. Stated for any float instance.
-/
import proofs.«112301_j67808943669345_2_alg».proof.Proof.KBody
import proofs.«112301_j67808943669345_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave, and the buffer contents around them -/

/-- The buffer contents when region 0 is entered: the launch memory after the three host stretches before it. -/
abbrev entry0 : (c : Dev nD) → (b : Ref sig .tc) → Buf (Elt F) ((c : Thread nD τ).loc b) := fun c b => Gen.V3 m c b

/-- Region 0's arrays after its pipeline: the inputs as entered, the channel sums' array at what the write-backs leave. -/
def W4 (c : Dev nD) : Valuation τ sig (Elt F) :=
  Pipeline.withArrays spec0 c (Gen.V3 m c) fun w => (dat0 (entry0 m) c).arrAt w cfg0.N

/-- The unknowns of the host side with only region 0's result filled in. -/
def o4 : Gen.Outs (F := F) := fun _ r c => W4 m c r

/-- The buffer contents when region 1 is entered, for given region results. -/
abbrev entry1 (o : Gen.Outs (F := F)) : (c : Dev nD) → (b : Ref sig .tc) → Buf (Elt F) ((c : Thread nD τ).loc b) := fun c b => Gen.V5 m o c b

/-- Region 1's arrays after its pipeline. -/
def W6 (c : Dev nD) : Valuation τ sig (Elt F) :=
  Pipeline.withArrays spec1 c (Gen.V5 m (o4 m) c) fun w => (dat1 (entry1 m (o4 m)) c).arrAt w cfg1.N

/-- What the regions leave in the buffers they may change: after region 0 (read at 4) its result array, after region 1
    (read at 6) its result array. -/
def outs : Gen.Outs (F := F) := fun J r c => if J = 6 then W6 m c r else W4 m c r

/-- Region 1's entry contents read only region 0's result, which `outs` and `o4` give alike. -/
theorem entry1_outs : entry1 m (outs m) = entry1 m (o4 m) := rfl

theorem outs4 (c : Dev nD) : outs m 4 main_v32 c = (dat0 (entry0 m) c).arrAt 2 cfg0.N := by
  show W4 m c main_v32 = _
  unfold W4; exact Pipeline.withArrays_arr spec0 launch0.win.arr_inj c _ _ 2

theorem outs6 (c : Dev nD) : outs m 6 main_v46 c = (dat1 (entry1 m (outs m)) c).arrAt 2 cfg1.N := by
  show W6 m c main_v46 = _
  unfold W6; exact Pipeline.withArrays_arr spec1 launch1.win.arr_inj c _ _ 2

/-- The contents region 0 is left at, read at the TensorCore's references. -/
abbrev exit0 : (c : Dev nD) → (b : Ref sig .tc) → Buf (Elt F) ((c : Thread nD τ).loc b) := fun c b => Gen.V4 m (outs m) c b
/-- The contents region 1 is left at. -/
abbrev exit1 : (c : Dev nD) → (b : Ref sig .tc) → Buf (Elt F) ((c : Thread nD τ).loc b) := fun c b => Gen.V6 m (outs m) c b

/-- At region 0's exit each of its arrays holds what the pipeline leaves: the result array by the choice of `outs`, an
    input array its entry contents (the pipeline does not write it, and the exit contents differ from the entry only at the result). -/
theorem hF0 (c : Dev nD) : ∀ w : Fin cfg0.W, (dat0 (entry0 m) c).arrAt w cfg0.N = exit0 m c (Pipeline.arrRef spec0 w)
  | ⟨0, _⟩ => ((dat0 (entry0 m) c).arrAt_in 0 rfl _).trans ((A_eq0 (entry0 m) c 0).trans (Gen.V4_of m (outs m) c main_v30 (by decide)).symm)
  | ⟨1, _⟩ => ((dat0 (entry0 m) c).arrAt_in 1 rfl _).trans ((A_eq0 (entry0 m) c 1).trans (Gen.V4_of m (outs m) c main_v29 (by decide)).symm)
  | ⟨2, _⟩ => (outs4 m c).symm.trans (by
      show outs m 4 main_v32 c = Function.update (Gen.V3 m c) main_v32 (outs m 4 main_v32 c) main_v32
      rw [Function.update_self])
theorem hrest0 (c : Dev nD) : ∀ b, b ∉ Finset.univ.image (Pipeline.arrRef spec0) → exit0 m c b = entry0 m c b :=
  fun b hb => Gen.V4_of m (outs m) c b (by
    intro hmem
    exact hb (Finset.mem_image.mpr ⟨2, Finset.mem_univ _, (List.mem_singleton.mp hmem).symm⟩))

theorem hF1 (c : Dev nD) : ∀ w : Fin cfg1.W, (dat1 (entry1 m (outs m)) c).arrAt w cfg1.N = exit1 m c (Pipeline.arrRef spec1 w)
  | ⟨0, _⟩ => ((dat1 (entry1 m (outs m)) c).arrAt_in 0 rfl _).trans ((A_eq1 (entry1 m (outs m)) c 0).trans (Gen.V6_of m (outs m) c main_v31 (by decide)).symm)
  | ⟨1, _⟩ => ((dat1 (entry1 m (outs m)) c).arrAt_in 1 rfl _).trans ((A_eq1 (entry1 m (outs m)) c 1).trans (Gen.V6_of m (outs m) c main_v45 (by decide)).symm)
  | ⟨2, _⟩ => (outs6 m c).symm.trans (by
      show outs m 6 main_v46 c = Function.update (Gen.V5 m (outs m) c) main_v46 (outs m 6 main_v46 c) main_v46
      rw [Function.update_self])
theorem hrest1 (c : Dev nD) : ∀ b, b ∉ Finset.univ.image (Pipeline.arrRef spec1) → exit1 m c b = entry1 m (outs m) c b :=
  fun b hb => Gen.V6_of m (outs m) c b (by
    intro hmem
    exact hb (Finset.mem_image.mpr ⟨2, Finset.mem_univ _, (List.mem_singleton.mp hmem).symm⟩))

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m (outs m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The regions as segments -/

set_option backward.isDefEq.respectTransparency.types false in
/-- Region 0 over the thread state: entered from every unscoped buffer at the contents after the host prefix, left at
    those contents updated at the channel sums' array. Its arrays are split out of the unscoped buffers and put back;
    the generator register goes into the pipeline's invariant and comes out; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the softmax stretch, left
    at those contents updated at the window sums' array. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m (outs m)) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m (outs m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m (outs m) c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- The run with the result named: every weakly fair execution of @main terminates, nothing faulting, with the result
    buffer at the last host stretch's contents (`Gen.V7` at the regions' results `outs`) and the argument as launched.
    The launch is the one of the host side's conditional frame, with the last thread state read at the result too. -/
theorem run_val : θ_run defs (onTc (τ := τ) (main (F := F))) ⟨m, fun _ => 0, ρ⟩ (fun r => ∀ c : Dev nD,
      r.2.mem ((c.tc : Thread nD τ).loc main_v47) = Gen.V7 m (outs m) c main_v47
      ∧ r.2.mem ((c.tc : Thread nD τ).loc main_arg0) = m ((c.tc : Thread nD τ).loc main_arg0)) := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (by
      iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v47) = Gen.V7 m (outs m) c main_v47
      ∧ s.mem ((c.tc : Thread nD τ).loc main_arg0) = m ((c.tc : Thread nD τ).loc main_arg0))
    (hfin := fun c s' => ?_) (hQ := fun _ h => h)
  -- the end: both buffers read off the last valuation
  unfold StableHlo.held
  iintro ⟨Hh, HSI⟩
  ihave Hr := (pointsTo_read_all (Pipeline.ucRefs τ sig) (fun b => ((c : Thread nD τ).1, b)) (Gen.V7 m (outs m) c) s') $$ [Hh HSI]
  · isplitl [Hh] <;> iassumption
  icases Hr with ⟨%h, HSI⟩
  imodintro
  isplitr
  · ipureintro
    exact ⟨h (Proc.devRef .tc main_v47) (Finset.mem_filter.mpr ⟨StableHlo.devRef_mem_tcRefs main_v47, by decide⟩),
      (h (Proc.devRef .tc main_arg0) (Finset.mem_filter.mpr ⟨StableHlo.devRef_mem_tcRefs main_arg0, by decide⟩)).trans (Gen.V7_main_arg0 m (outs m) c)⟩
  · iexact HSI

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_val m ρ)

end Cert.KernelIdeal.Hand

end
-- ==== Proof.Spec.lean ====
/-
  The common function of the two programs, over the extended reals.

  From the 3x3 patches of the padded image, re-read row-major as `left` [8, 16384, 9, 64] and as `right`
  [8, 16384, 64, 9], and the centre pixels `mid` [8, 16384, 64]:
    a(n,p,k)   = sum over c of (left(n,p,k,c) + mid(n,p,c))              -- the channel sums
    s(n,p,k)   = exp(a(n,p,k) - max_p a(n,p,k)) / sum over p of exp(...)   -- a softmax along the pixel axis p
    out(n,p,c) = sum over k of right(n,p,c,k) + sum over k of s(n,p,k)     -- the window sums
  The float literals (the zero a sum starts from, the minus infinity a maximum starts from) are kept as their words.
-/
import Idealize.ShloMosaic.PureOps.Ideal
import Idealize.ShloMosaic.Lib.ValueIdx

noncomputable section

namespace Cert.Spec

open Idealize.ShloMosaic Idealize.ShloMosaic.ValueIdx
open scoped BigOperators

/-- `left`: pixel, window position (merged 3x3), channel. -/
abbrev SL : Shape := ⟨4, ![8, 16384, 9, 64]⟩
/-- `mid` and the result before its last reshape: pixel, channel. -/
abbrev SM : Shape := ⟨3, ![8, 16384, 64]⟩
/-- `right`: pixel, channel, window position (merged 3x3). -/
abbrev SR : Shape := ⟨4, ![8, 16384, 64, 9]⟩
/-- The channel sums and the softmax: pixel, window position. -/
abbrev SA : Shape := ⟨3, ![8, 16384, 9]⟩
/-- The softmax summed over the window, kept as a column. -/
abbrev SS : Shape := ⟨3, ![8, 16384, 1]⟩
/-- The programs' argument and result. -/
abbrev SX : Shape := ⟨4, ![8, 64, 128, 128]⟩

/-- The patches re-read as `left`, before the 3x3 window is merged. -/
abbrev SL5 : Shape := ⟨5, ![8, 16384, 3, 3, 64]⟩
/-- The patches re-read as `right`, before the 3x3 window is merged. -/
abbrev SR5 : Shape := ⟨5, ![8, 16384, 64, 3, 3]⟩
/-- The image with its channels last, before the pixels are merged. -/
abbrev SM4 : Shape := ⟨4, ![8, 128, 128, 64]⟩

theorem sc_L : SL5.ShapeCasts SL := by decide
theorem sc_R : SR5.ShapeCasts SR := by decide
theorem sc_M : SM4.ShapeCasts SM := by decide
theorem sc_X : SM.ShapeCasts SX := by decide

/-- The word a maximum starts from (minus infinity), unevaluated. -/
def ninf : EReal := Ideal.ofBits .f32 0xFF800000#32
/-- The word a sum starts from (zero), unevaluated. -/
def zero : EReal := Ideal.ofBits .f32 0x00000000#32

/-- The channel sum at image `n`, pixel `p`, window position `k`. -/
def chan (l : SL.Idx → EReal) (md : SM.Idx → EReal) (n : Fin 8) (p : Fin 16384) (k : Fin 9) : EReal :=
  ∑ c : Fin 64, (l (ix4 n p k c) + md (ix3 n p c))

/-- The channel sums as an array. -/
def chanArr (l : SL.Idx → EReal) (md : SM.Idx → EReal) : SA.Idx → EReal :=
  fun j => chan l md (j 0) (j 1) (j 2)

/-- The maximum over the pixels of column (`n`, `k`), taken again against minus infinity (as the softmax spells it). -/
def colMax (A : SA.Idx → EReal) (n : Fin 8) (k : Fin 9) : EReal :=
  max ninf ((Finset.univ : Finset (Fin 16384)).fold max ninf (fun p => A (ix3 n p k)))

/-- The shifted exponential. -/
def expo (A : SA.Idx → EReal) (n : Fin 8) (p : Fin 16384) (k : Fin 9) : EReal :=
  Ideal.exp (A (ix3 n p k) - colMax A n k)

/-- The softmax's denominator of column (`n`, `k`). -/
def denom (A : SA.Idx → EReal) (n : Fin 8) (k : Fin 9) : EReal :=
  zero + ∑ p : Fin 16384, expo A n p k

/-- The softmax at (`n`, `p`, `k`). -/
def soft (A : SA.Idx → EReal) (n : Fin 8) (p : Fin 16384) (k : Fin 9) : EReal :=
  Ideal.div (expo A n p k) (denom A n k)

/-- The softmax summed over the window positions, as the column array the second kernel reads. -/
def softSum (A : SA.Idx → EReal) : SS.Idx → EReal :=
  fun j => zero + ∑ k : Fin 9, soft A (j 0) (j 1) k

/-- The window sum of `right` plus the softmax's sum, as an array. -/
def winOut (r : SR.Idx → EReal) (s : SS.Idx → EReal) : SM.Idx → EReal :=
  fun j => (∑ k : Fin 9, r (ix4 (j 0) (j 1) (j 2) k)) + s (ix3 (j 0) (j 1) (0 : Fin 1))

/-- The whole result before the last reshape, from `left`, `mid` and `right`. -/
def result (l : SL.Idx → EReal) (md : SM.Idx → EReal) (r : SR.Idx → EReal) : SM.Idx → EReal :=
  winOut r (softSum (chanArr l md))

/-- The programs' result from the three shared stages (the patches re-read as `left` and as `right`, the image with
    channels last): merge the window axes, merge the pixel axes, take `result`, and re-read it row-major as an image. -/
def whole (L : SL5.Idx → EReal) (Mt : SM4.Idx → EReal) (R : SR5.Idx → EReal) : SX.Idx → EReal :=
  shapeCast SX (result (shapeCast SL L sc_L) (shapeCast SM Mt sc_M) (shapeCast SR R sc_R)) sc_X

end Cert.Spec

end
-- ==== Proof.RegValue.lean ====
/-
  What each of the two kernels leaves in its result array, as one function of the arrays it reads, over the
  extended reals.

  Region 0 runs over an 8 x 16 grid. At point t it holds image t / 16 and the (t % 16)-th run of 1024 pixels: a
  [1, 1024, 9, 64] block of `left`, a [1, 1024, 64] block of `mid`, and it stores the [1, 1024, 9] block whose entry
  (p, k) is the sum over the 64 channels c of left(p, k, c) + mid(p, c) — `mid` is spread over the nine window
  positions before the addition, and the sum starts from the zero word, which adds nothing. Region 1 runs over an
  8 x 64 grid, 256 pixels at a time: from a [1, 256, 64, 9] block of `right` and a [1, 256, 1] block of the column of
  softmax sums it stores the [1, 256, 64] block whose entry (p, c) is the sum over the nine window positions k of
  right(p, c, k), plus the column's entry of pixel p.

  Each block is therefore the restriction of ONE whole-array function (`Cert.Spec.chanArr`, `Cert.Spec.winOut`) to
  the rectangle the point writes back: a block's coordinate on an axis is its block index times the block's extent
  plus the coordinate inside the block, and the three windows of a region move together. The blocks tile the result
  array — index (n, p, ·) lies in the block of point n * 16 + p / 1024, resp. n * 64 + p / 256 — so after the last
  write-back the array is that function everywhere (`arr0_eq`, `arr1_eq`).
-/
import proofs.«112301_j67808943669345_2_alg».proof.Proof.KDefs
import proofs.«112301_j67808943669345_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The two stored values at an index -/

/-- The index a channel sum reads: the reduced index with the channel put back last. -/
theorem b_lift0 (a : Fin 1) (p : Fin 1024) (k : Fin 9) (c : Fin 64) :
    reduces_S1x1024x9x64_S1x1024x9.lift (ix3 a p k) c = ix4 a p k c := by
  funext d; apply Fin.ext
  match d with
  | ⟨0, _⟩ => rfl
  | ⟨1, _⟩ => rfl
  | ⟨2, _⟩ => rfl
  | ⟨3, _⟩ => rfl

/-- Region 0's stored block at (a, p, k): the sum over the 64 channels of the left block plus the centre block. -/
theorem b_pay0_apply (x0 : Vec Ideal S1x1024x9x64 .f32) (x1 : Vec Ideal S1x1024x64 .f32)
    (a : Fin 1) (p : Fin 1024) (k : Fin 9) :
    k0_pay1 (F := Ideal) x0 x1 (ix3 a p k) = ∑ c : Fin 64, (x0 (ix4 a p k c) + x1 (ix3 a p c)) := by
  unfold k0_pay1
  simp only [shapeCast_self]
  refine (Ideal.multiReduction_add_single _ _ reduces_S1x1024x9x64_S1x1024x9 _ _ (ix3 a p k)).trans ?_
  show (∑ c : Fin 64, _) = _
  refine Finset.sum_congr rfl fun c _ => ?_
  rw [b_lift0 a p k c]
  show x0 (ix4 a p k c) + _ = _
  congr 1
  refine (broadcastTo_apply _ _ (ix4 a p k c) (ix4 a p (0 : Fin 1) c) fun d => ?_).trans ?_
  · match d with
    | ⟨0, _⟩ => exact (show a.val = 0 by omega).trans (if_pos rfl).symm
    | ⟨1, _⟩ => exact (if_neg (show ¬ (1024 : Nat) = 1 by decide)).symm
    | ⟨2, _⟩ => exact (if_pos rfl).symm
    | ⟨3, _⟩ => exact (if_neg (show ¬ (64 : Nat) = 1 by decide)).symm
  · refine shapeCast_apply _ _ (ix4 a p (0 : Fin 1) c) (ix3 a p c) ?_
    rw [Shape.rowMajor_val_three, Shape.rowMajor_val_four]
    show ((a.val * 1024 + p.val) * 64 + c.val) = ((a.val * 1024 + p.val) * 1 + 0) * 64 + c.val
    omega

/-- The index a window sum reads: the reduced index with the window position put back last. -/
theorem b_lift1 (a : Fin 1) (p : Fin 256) (c : Fin 64) (k : Fin 9) :
    reduces_S1x256x64x9_S1x256x64.lift (ix3 a p c) k = ix4 a p c k := by
  funext d; apply Fin.ext
  match d with
  | ⟨0, _⟩ => rfl
  | ⟨1, _⟩ => rfl
  | ⟨2, _⟩ => rfl
  | ⟨3, _⟩ => rfl

/-- Region 1's stored block at (a, p, c): the sum over the 9 window positions of the right block, plus the
    column block's entry of pixel p. -/
theorem b_pay1_apply (x0 : Vec Ideal S1x256x64x9 .f32) (x1 : Vec Ideal S1x256x1 .f32)
    (a : Fin 1) (p : Fin 256) (c : Fin 64) :
    k1_pay1 (F := Ideal) x0 x1 (ix3 a p c) = (∑ k : Fin 9, x0 (ix4 a p c k)) + x1 (ix3 a p (0 : Fin 1)) := by
  unfold k1_pay1
  simp only [shapeCast_self]
  refine (addf_apply _ _ (ix3 a p c)).trans ?_
  congr 1
  · refine (Ideal.multiReduction_add_single _ _ reduces_S1x256x64x9_S1x256x64 _ _ (ix3 a p c)).trans ?_
    show (∑ k : Fin 9, _) = _
    refine Finset.sum_congr rfl fun k _ => ?_
    rw [b_lift1 a p c k]
  · refine broadcastTo_apply _ _ (ix3 a p c) (ix3 a p (0 : Fin 1)) fun d => ?_
    match d with
    | ⟨0, _⟩ => exact (show a.val = 0 by omega).trans (if_pos rfl).symm
    | ⟨1, _⟩ => exact (if_neg (show ¬ (256 : Nat) = 1 by decide)).symm
    | ⟨2, _⟩ => exact (if_pos rfl).symm

variable (V : (c : Dev nD) → (b : Ref sig .tc) → Buf (Elt Ideal) ((c : Thread nD τ).loc b))

theorem b_hz3 : (![0, 0, 0] : Fin 3 → Nat) = fun _ => 0 := funext fun a => by fin_cases a <;> rfl
theorem b_hz4 : (![0, 0, 0, 0] : Fin 4 → Nat) = fun _ => 0 := funext fun a => by fin_cases a <;> rfl

/-! ## Region 0: the channel sums as one array -/

/-- The three index maps over the 128 grid points: point t works on image t / 16 and on the t % 16-th run of 1024
    pixels, in all three windows; every other block index is 0. -/
theorem b_idx0 : ∀ t : Fin cfg0.N,
    win0_2.index t (0 : Fin 3) = t.val / 16 ∧ win0_2.index t (1 : Fin 3) = t.val % 16 ∧ win0_2.index t (2 : Fin 3) = 0
    ∧ win0_0.index t (0 : Fin 4) = t.val / 16 ∧ win0_0.index t (1 : Fin 4) = t.val % 16
    ∧ win0_0.index t (2 : Fin 4) = 0 ∧ win0_0.index t (3 : Fin 4) = 0
    ∧ win0_1.index t (0 : Fin 3) = t.val / 16 ∧ win0_1.index t (1 : Fin 3) = t.val % 16 ∧ win0_1.index t (2 : Fin 3) = 0 :=
  (by decide +kernel : ∀ t : Fin grid0.N, _)

/-- A block of channel sums is the matching block of the array of channel sums: if the two operand blocks are
    image n, pixels q * 1024 …, of left and of mid, the stored block at y is the array at (n, q * 1024 + y 1, y 2). -/
theorem b_blk0 (l : Cert.Spec.SL.Idx → EReal) (md : Cert.Spec.SM.Idx → EReal)
    (x0 : Vec Ideal S1x1024x9x64 .f32) (x1 : Vec Ideal S1x1024x64 .f32) (n q : Nat)
    (h0 : ∀ (y : S1x1024x9x64.Idx) (i : Cert.Spec.SL.Idx), (i 0).val = n → (i 1).val = q * 1024 + (y 1).val →
      (i 2).val = (y 2).val → (i 3).val = (y 3).val → x0 y = l i)
    (h1 : ∀ (y : S1x1024x64.Idx) (i : Cert.Spec.SM.Idx), (i 0).val = n → (i 1).val = q * 1024 + (y 1).val →
      (i 2).val = (y 2).val → x1 y = md i)
    (y : S1x1024x9.Idx) (i : Cert.Spec.SA.Idx)
    (hi0 : (i 0).val = n) (hi1 : (i 1).val = q * 1024 + (y 1).val) (hi2 : (i 2).val = (y 2).val) :
    k0_pay1 (F := Ideal) x0 x1 y = Cert.Spec.chanArr l md i := by
  obtain ⟨a, p, k, rfl⟩ : ∃ (a : Fin 1) (p : Fin 1024) (k : Fin 9), y = ix3 a p k := ⟨y 0, y 1, y 2, eq_ix3 y⟩
  obtain ⟨n', P, k', rfl⟩ : ∃ (n' : Fin 8) (P : Fin 16384) (k' : Fin 9), i = ix3 n' P k' := ⟨i 0, i 1, i 2, eq_ix3 i⟩
  rw [b_pay0_apply]
  unfold Cert.Spec.chanArr Cert.Spec.chan
  refine Finset.sum_congr rfl fun c _ => ?_
  rw [h0 (ix4 a p k c) (ix4 n' P k' c) hi0 hi1 hi2 rfl, h1 (ix3 a p c) (ix3 n' P c) hi0 hi1 rfl]

/-- What grid point t writes back is block t of the array of channel sums. -/
theorem b_flushed0 (c : Dev nD) (t : Fin cfg0.N) :
    (dat0 (F := Ideal) V c).flushed 2 t
      = ((cfg0.win 2).blk t).view.read (Elt Ideal) (Cert.Spec.chanArr (V c main_v30) (V c main_v29)) := by
  show (cfg0.win 2).cut (grid0.coords t) ((dat0 V c).after 2 t) = _
  rw [after0_2]
  unfold out0_2
  rw [View.canon_unit_zero b_hz3]
  simp only [View.ld_unit_zero (S := S1x1024x9x64) b_hz4, View.ld_unit_zero (S := S1x1024x64) b_hz3]
  obtain ⟨e0, e1, e2, e3, e4, e5, e6, e7, e8, e9⟩ := b_idx0 t
  funext j
  show k0_pay1 (F := Ideal) (iblk0 V c 0 t) (iblk0 V c 1 t) j
      = Cert.Spec.chanArr (V c main_v30) (V c main_v29) (((cfg0.win 2).blk t).view.emb j)
  refine b_blk0 (V c main_v30) (V c main_v29) (iblk0 V c 0 t) (iblk0 V c 1 t) (t.val / 16) (t.val % 16) ?_ ?_ j
    (((cfg0.win 2).blk t).view.emb j) ?_ ?_ ?_
  · intro y i h0 h1 h2 h3
    show V c main_v30 (((cfg0.win 0).blk t).view.emb y) = V c main_v30 i
    refine congrArg (V c main_v30) (funext fun a => Fin.ext ?_)
    match a with
    | ⟨0, _⟩ => show win0_0.index t (0 : Fin 4) * 1 + 1 * (y 0).val = (i 0).val; have hy : (y 0).val < 1 := (y 0).isLt; omega
    | ⟨1, _⟩ => show win0_0.index t (1 : Fin 4) * 1024 + 1 * (y 1).val = (i 1).val; omega
    | ⟨2, _⟩ => show win0_0.index t (2 : Fin 4) * 9 + 1 * (y 2).val = (i 2).val; omega
    | ⟨3, _⟩ => show win0_0.index t (3 : Fin 4) * 64 + 1 * (y 3).val = (i 3).val; omega
  · intro y i h0 h1 h2
    show V c main_v29 (((cfg0.win 1).blk t).view.emb y) = V c main_v29 i
    refine congrArg (V c main_v29) (funext fun a => Fin.ext ?_)
    match a with
    | ⟨0, _⟩ => show win0_1.index t (0 : Fin 3) * 1 + 1 * (y 0).val = (i 0).val; have hy : (y 0).val < 1 := (y 0).isLt; omega
    | ⟨1, _⟩ => show win0_1.index t (1 : Fin 3) * 1024 + 1 * (y 1).val = (i 1).val; omega
    | ⟨2, _⟩ => show win0_1.index t (2 : Fin 3) * 64 + 1 * (y 2).val = (i 2).val; omega
  · show win0_2.index t (0 : Fin 3) * 1 + 1 * (j 0).val = t.val / 16; have hj : (j 0).val < 1 := (j 0).isLt; omega
  · show win0_2.index t (1 : Fin 3) * 1024 + 1 * (j 1).val = t.val % 16 * 1024 + (j 1).val; omega
  · show win0_2.index t (2 : Fin 3) * 9 + 1 * (j 2).val = (j 2).val; omega

/-- An index of the array is in point t's block iff each coordinate is in the block's range on its axis. -/
theorem b_mem_blk0 (t : Fin cfg0.N) (i : S8x16384x9.Idx) :
    i ∈ ((cfg0.win 2).blk t).view.set ↔ ∀ a : Fin 3, win0_2.index t a * S1x1024x9.size a ≤ (i a).val
      ∧ (i a).val < win0_2.index t a * S1x1024x9.size a + S1x1024x9.size a := by
  show i ∈ ((View.whole main_v32).slice (win0_2.rect t)).set ↔ _
  rw [View.set_slice_whole, Rect.mem_set_unit]
  exact Iff.rfl

/-- Every index (n, p, k) of the array is in the block of point n * 16 + p / 1024. -/
theorem b_cover0 (i : S8x16384x9.Idx) :
    ∃ t : Fin cfg0.N, (cfg0.win 2).flush t = true ∧ i ∈ ((cfg0.win 2).blk t).view.set := by
  have hi0 : (i 0).val < 8 := (i 0).isLt
  have hi1 : (i 1).val < 16384 := (i 1).isLt
  have hi2 : (i 2).val < 9 := (i 2).isLt
  have hN : (i 0).val * 16 + (i 1).val / 1024 < cfg0.N := by rw [show cfg0.N = 128 from N_0]; omega
  obtain ⟨e0, e1, e2, -⟩ := b_idx0 ⟨(i 0).val * 16 + (i 1).val / 1024, hN⟩
  have q0 : win0_2.index ⟨(i 0).val * 16 + (i 1).val / 1024, hN⟩ (0 : Fin 3) = ((i 0).val * 16 + (i 1).val / 1024) / 16 := e0
  have q1 : win0_2.index ⟨(i 0).val * 16 + (i 1).val / 1024, hN⟩ (1 : Fin 3) = ((i 0).val * 16 + (i 1).val / 1024) % 16 := e1
  have q2 : win0_2.index ⟨(i 0).val * 16 + (i 1).val / 1024, hN⟩ (2 : Fin 3) = 0 := e2
  refine ⟨⟨(i 0).val * 16 + (i 1).val / 1024, hN⟩, flush0_2 _, ?_⟩
  rw [b_mem_blk0]
  intro a
  match a with
  | ⟨0, _⟩ =>
    show win0_2.index ⟨(i 0).val * 16 + (i 1).val / 1024, hN⟩ (0 : Fin 3) * 1 ≤ (i 0).val
      ∧ (i 0).val < win0_2.index ⟨(i 0).val * 16 + (i 1).val / 1024, hN⟩ (0 : Fin 3) * 1 + 1
    omega
  | ⟨1, _⟩ =>
    show win0_2.index ⟨(i 0).val * 16 + (i 1).val / 1024, hN⟩ (1 : Fin 3) * 1024 ≤ (i 1).val
      ∧ (i 1).val < win0_2.index ⟨(i 0).val * 16 + (i 1).val / 1024, hN⟩ (1 : Fin 3) * 1024 + 1024
    omega
  | ⟨2, _⟩ =>
    show win0_2.index ⟨(i 0).val * 16 + (i 1).val / 1024, hN⟩ (2 : Fin 3) * 9 ≤ (i 2).val
      ∧ (i 2).val < win0_2.index ⟨(i 0).val * 16 + (i 1).val / 1024, hN⟩ (2 : Fin 3) * 9 + 9
    omega

/-- After region 0 its result array holds the channel sums of the two operand arrays as the region found them. -/
theorem arr0_eq (c : Dev nD) :
    (dat0 (F := Ideal) V c).arrAt 2 cfg0.N = Cert.Spec.chanArr (V c main_v30) (V c main_v29) :=
  (dat0 (F := Ideal) V c).arrAt_eq_of_cover 2 (Cert.Spec.chanArr (V c main_v30) (V c main_v29))
    (fun t _ => b_flushed0 V c t) b_cover0

/-! ## Region 1: the window sums plus the softmax column as one array -/

/-- The three index maps over the 512 grid points: point t works on image t / 64 and on the t % 64-th run of 256
    pixels, in all three windows; every other block index is 0. -/
theorem b_idx1 : ∀ t : Fin cfg1.N,
    win1_2.index t (0 : Fin 3) = t.val / 64 ∧ win1_2.index t (1 : Fin 3) = t.val % 64 ∧ win1_2.index t (2 : Fin 3) = 0
    ∧ win1_0.index t (0 : Fin 4) = t.val / 64 ∧ win1_0.index t (1 : Fin 4) = t.val % 64
    ∧ win1_0.index t (2 : Fin 4) = 0 ∧ win1_0.index t (3 : Fin 4) = 0
    ∧ win1_1.index t (0 : Fin 3) = t.val / 64 ∧ win1_1.index t (1 : Fin 3) = t.val % 64 ∧ win1_1.index t (2 : Fin 3) = 0 :=
  (by decide +kernel : ∀ t : Fin grid1.N, _)

/-- A block of window sums is the matching block of the array of window sums: if the two operand blocks are
    image n, pixels q * 256 …, of right and of the column, the stored block at y is the array at (n, q * 256 + y 1, y 2). -/
theorem b_blk1 (r : Cert.Spec.SR.Idx → EReal) (s : Cert.Spec.SS.Idx → EReal)
    (x0 : Vec Ideal S1x256x64x9 .f32) (x1 : Vec Ideal S1x256x1 .f32) (n q : Nat)
    (h0 : ∀ (y : S1x256x64x9.Idx) (i : Cert.Spec.SR.Idx), (i 0).val = n → (i 1).val = q * 256 + (y 1).val →
      (i 2).val = (y 2).val → (i 3).val = (y 3).val → x0 y = r i)
    (h1 : ∀ (y : S1x256x1.Idx) (i : Cert.Spec.SS.Idx), (i 0).val = n → (i 1).val = q * 256 + (y 1).val →
      (i 2).val = (y 2).val → x1 y = s i)
    (y : S1x256x64.Idx) (i : Cert.Spec.SM.Idx)
    (hi0 : (i 0).val = n) (hi1 : (i 1).val = q * 256 + (y 1).val) (hi2 : (i 2).val = (y 2).val) :
    k1_pay1 (F := Ideal) x0 x1 y = Cert.Spec.winOut r s i := by
  obtain ⟨a, p, c, rfl⟩ : ∃ (a : Fin 1) (p : Fin 256) (c : Fin 64), y = ix3 a p c := ⟨y 0, y 1, y 2, eq_ix3 y⟩
  obtain ⟨n', P, c', rfl⟩ : ∃ (n' : Fin 8) (P : Fin 16384) (c' : Fin 64), i = ix3 n' P c' := ⟨i 0, i 1, i 2, eq_ix3 i⟩
  rw [b_pay1_apply]
  unfold Cert.Spec.winOut
  congr 1
  · refine Finset.sum_congr rfl fun k _ => ?_
    rw [h0 (ix4 a p c k) (ix4 n' P c' k) hi0 hi1 hi2 rfl]
  · rw [h1 (ix3 a p (0 : Fin 1)) (ix3 n' P (0 : Fin 1)) hi0 hi1 rfl]

/-- What grid point t writes back is block t of the array of window sums. -/
theorem b_flushed1 (c : Dev nD) (t : Fin cfg1.N) :
    (dat1 (F := Ideal) V c).flushed 2 t
      = ((cfg1.win 2).blk t).view.read (Elt Ideal) (Cert.Spec.winOut (V c main_v31) (V c main_v45)) := by
  show (cfg1.win 2).cut (grid1.coords t) ((dat1 V c).after 2 t) = _
  rw [after1_2]
  unfold out1_2
  rw [View.canon_unit_zero b_hz3]
  simp only [View.ld_unit_zero (S := S1x256x64x9) b_hz4, View.ld_unit_zero (S := S1x256x1) b_hz3]
  obtain ⟨e0, e1, e2, e3, e4, e5, e6, e7, e8, e9⟩ := b_idx1 t
  funext j
  show k1_pay1 (F := Ideal) (iblk1 V c 0 t) (iblk1 V c 1 t) j
      = Cert.Spec.winOut (V c main_v31) (V c main_v45) (((cfg1.win 2).blk t).view.emb j)
  refine b_blk1 (V c main_v31) (V c main_v45) (iblk1 V c 0 t) (iblk1 V c 1 t) (t.val / 64) (t.val % 64) ?_ ?_ j
    (((cfg1.win 2).blk t).view.emb j) ?_ ?_ ?_
  · intro y i h0 h1 h2 h3
    show V c main_v31 (((cfg1.win 0).blk t).view.emb y) = V c main_v31 i
    refine congrArg (V c main_v31) (funext fun a => Fin.ext ?_)
    match a with
    | ⟨0, _⟩ => show win1_0.index t (0 : Fin 4) * 1 + 1 * (y 0).val = (i 0).val; have hy : (y 0).val < 1 := (y 0).isLt; omega
    | ⟨1, _⟩ => show win1_0.index t (1 : Fin 4) * 256 + 1 * (y 1).val = (i 1).val; omega
    | ⟨2, _⟩ => show win1_0.index t (2 : Fin 4) * 64 + 1 * (y 2).val = (i 2).val; omega
    | ⟨3, _⟩ => show win1_0.index t (3 : Fin 4) * 9 + 1 * (y 3).val = (i 3).val; omega
  · intro y i h0 h1 h2
    show V c main_v45 (((cfg1.win 1).blk t).view.emb y) = V c main_v45 i
    refine congrArg (V c main_v45) (funext fun a => Fin.ext ?_)
    match a with
    | ⟨0, _⟩ => show win1_1.index t (0 : Fin 3) * 1 + 1 * (y 0).val = (i 0).val; have hy : (y 0).val < 1 := (y 0).isLt; omega
    | ⟨1, _⟩ => show win1_1.index t (1 : Fin 3) * 256 + 1 * (y 1).val = (i 1).val; omega
    | ⟨2, _⟩ => show win1_1.index t (2 : Fin 3) * 1 + 1 * (y 2).val = (i 2).val; omega
  · show win1_2.index t (0 : Fin 3) * 1 + 1 * (j 0).val = t.val / 64; have hj : (j 0).val < 1 := (j 0).isLt; omega
  · show win1_2.index t (1 : Fin 3) * 256 + 1 * (j 1).val = t.val % 64 * 256 + (j 1).val; omega
  · show win1_2.index t (2 : Fin 3) * 64 + 1 * (j 2).val = (j 2).val; omega

/-- An index of the array is in point t's block iff each coordinate is in the block's range on its axis. -/
theorem b_mem_blk1 (t : Fin cfg1.N) (i : S8x16384x64.Idx) :
    i ∈ ((cfg1.win 2).blk t).view.set ↔ ∀ a : Fin 3, win1_2.index t a * S1x256x64.size a ≤ (i a).val
      ∧ (i a).val < win1_2.index t a * S1x256x64.size a + S1x256x64.size a := by
  show i ∈ ((View.whole main_v46).slice (win1_2.rect t)).set ↔ _
  rw [View.set_slice_whole, Rect.mem_set_unit]
  exact Iff.rfl

/-- Every index (n, p, c) of the array is in the block of point n * 64 + p / 256. -/
theorem b_cover1 (i : S8x16384x64.Idx) :
    ∃ t : Fin cfg1.N, (cfg1.win 2).flush t = true ∧ i ∈ ((cfg1.win 2).blk t).view.set := by
  have hi0 : (i 0).val < 8 := (i 0).isLt
  have hi1 : (i 1).val < 16384 := (i 1).isLt
  have hi2 : (i 2).val < 64 := (i 2).isLt
  have hN : (i 0).val * 64 + (i 1).val / 256 < cfg1.N := by rw [show cfg1.N = 512 from N_1]; omega
  obtain ⟨e0, e1, e2, -⟩ := b_idx1 ⟨(i 0).val * 64 + (i 1).val / 256, hN⟩
  have q0 : win1_2.index ⟨(i 0).val * 64 + (i 1).val / 256, hN⟩ (0 : Fin 3) = ((i 0).val * 64 + (i 1).val / 256) / 64 := e0
  have q1 : win1_2.index ⟨(i 0).val * 64 + (i 1).val / 256, hN⟩ (1 : Fin 3) = ((i 0).val * 64 + (i 1).val / 256) % 64 := e1
  have q2 : win1_2.index ⟨(i 0).val * 64 + (i 1).val / 256, hN⟩ (2 : Fin 3) = 0 := e2
  refine ⟨⟨(i 0).val * 64 + (i 1).val / 256, hN⟩, flush1_2 _, ?_⟩
  rw [b_mem_blk1]
  intro a
  match a with
  | ⟨0, _⟩ =>
    show win1_2.index ⟨(i 0).val * 64 + (i 1).val / 256, hN⟩ (0 : Fin 3) * 1 ≤ (i 0).val
      ∧ (i 0).val < win1_2.index ⟨(i 0).val * 64 + (i 1).val / 256, hN⟩ (0 : Fin 3) * 1 + 1
    omega
  | ⟨1, _⟩ =>
    show win1_2.index ⟨(i 0).val * 64 + (i 1).val / 256, hN⟩ (1 : Fin 3) * 256 ≤ (i 1).val
      ∧ (i 1).val < win1_2.index ⟨(i 0).val * 64 + (i 1).val / 256, hN⟩ (1 : Fin 3) * 256 + 256
    omega
  | ⟨2, _⟩ =>
    show win1_2.index ⟨(i 0).val * 64 + (i 1).val / 256, hN⟩ (2 : Fin 3) * 64 ≤ (i 2).val
      ∧ (i 2).val < win1_2.index ⟨(i 0).val * 64 + (i 1).val / 256, hN⟩ (2 : Fin 3) * 64 + 64
    omega

/-- After region 1 its result array holds the window sums of right plus the column, as the region found them. -/
theorem arr1_eq (c : Dev nD) :
    (dat1 (F := Ideal) V c).arrAt 2 cfg1.N = Cert.Spec.winOut (V c main_v31) (V c main_v45) :=
  (dat1 (F := Ideal) V c).arrAt_eq_of_cover 2 (Cert.Spec.winOut (V c main_v31) (V c main_v45))
    (fun t _ => b_flushed1 V c t) b_cover1

end Cert.KernelIdeal.Hand

end
-- ==== Proof.KHostPre.lean ====
/-
  The host operations before the first kernel, read back: the padded image, its nine shifted slices stacked into
  the 3x3 patches, the patches re-read row-major as `left` [8, 16384, 9, 64] and as `right` [8, 16384, 64, 9], and the
  image with its channels last re-read as `mid` [8, 16384, 64]. These are operation for operation the reference's
  first operations, so each buffer holds the reference's stage of the same name, re-read once more at the merged shape.
-/
import proofs.«112301_j67808943669345_2_alg».proof.Proof.Gen.KernelIdeal.Regions
import proofs.«112301_j67808943669345_2_alg».proof.Proof.RefRead
import proofs.«112301_j67808943669345_2_alg».proof.Proof.Spec
import Idealize.ShloMosaic.Lib.StableHlo.Run
import Idealize.ShloMosaic.Lib.Pipeline.Frame
import Idealize.ShloMosaic.Lib.Pipeline.Value

noncomputable section

namespace Cert.KernelIdeal.Hand

open Cert.KernelIdeal Cert.KernelIdeal.Gen
open Idealize.ShloMosaic Idealize.ShloMosaic.TcCoe
open Idealize.SL.Sem

/-! ## A three-operand operation's result -/

section
variable {Val : EltTy → Type}

/-- Three operands' contents as the family a three-operand operation's function takes. -/
def c_vec3 {x a b : Ref sig .tc} (p : x.ty.Contents Val) (q : a.ty.Contents Val) (r : b.ty.Contents Val) :
    (k : Fin 3) → ((![x, a, b] : Fin 3 → Ref sig .tc) k).ty.Contents Val :=
  Fin.cons p (Fin.cons q (Fin.cons r (fun i => i.elim0)))

/-- Application, kept folded while the operands are read. -/
def c_app {α β : Sort _} (f : α → β) (v : α) : β := f v

/-- A three-operand operation's result with each operand's contents at its own reference. -/
theorem c_nary3_result' {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = c_app f (c_vec3 (G (Proc.devRef .tc x)) (G (Proc.devRef .tc a)) (G (Proc.devRef .tc b))) := by
  rw [StableHlo.nary_result]; unfold c_app c_vec3; congr 1; funext k; fin_cases k <;> rfl

end

/-! ## The stretches -/

open Cert.ReferenceIdeal.ReadP

/-- The padded image: the constant's conversion and the pad of the called function. -/
theorem c_v0 (m : (ℓ : Loc nD τ sig) → Buf (Elt Ideal) ℓ) (c : Dev nD) :
    Gen.V2 m c (Proc.devRef .tc main_v0) = val_main_v0 (F := Ideal) (m ((c.tc : Thread nD τ).loc main_arg0)) := by
  show StableHlo.after hostOps0_1 (StableHlo.after hostOps0 (Gen.V0 m c)) (Proc.devRef .tc main_v0) = _
  after_results
  simp only [StableHlo.TRef.ofBuf, StableHlo.TRef.toBuf, cast_cast, cast_eq]
  rfl

set_option maxHeartbeats 2000000 in
/-- The patches: over any contents holding the padded image, the first twenty-five operations (nine slices, each
    given a unit axis, stacked three by three, each stack given a unit axis, the three stacked again) leave the
    reference's patches. -/
theorem c_v25 (x : (⟨S8x64x128x128, .f32⟩ : BufTy).Contents (Elt Ideal)) (W : Valuation τ sig (Elt Ideal))
    (h0 : W (Proc.devRef .tc main_v0) = val_main_v0 (F := Ideal) x) :
    StableHlo.after ((hostOps0_2 (F := Ideal)).take 25) W (Proc.devRef .tc main_v25) = val_main_v25 (F := Ideal) x := by
  simp only [List.take_succ_cons, List.take_zero]
  simp (disch := decide) only [StableHlo.after_cons, StableHlo.after_nil, StableHlo.unary_result', c_nary3_result',
    StableHlo.unary_result_ne', StableHlo.nary_result_ne']
  rw [h0]
  rfl

/-- `left`: over any contents holding the patches, the last six operations leave the patches re-read twice. -/
theorem c_post30 (x : (⟨S8x64x128x128, .f32⟩ : BufTy).Contents (Elt Ideal)) (W : Valuation τ sig (Elt Ideal))
    (h25 : W (Proc.devRef .tc main_v25) = val_main_v25 (F := Ideal) x) :
    (StableHlo.after ((hostOps0_2 (F := Ideal)).drop 25) W (Proc.devRef .tc main_v30) : Cert.Spec.SL.Idx → EReal)
      = shapeCast Cert.Spec.SL (val_main_v26 (F := Ideal) x) Cert.Spec.sc_L := by
  simp only [List.drop_succ_cons, List.drop_zero]
  after_results_simp
  rw [h25]
  rfl

/-- `right`: likewise. -/
theorem c_post31 (x : (⟨S8x64x128x128, .f32⟩ : BufTy).Contents (Elt Ideal)) (W : Valuation τ sig (Elt Ideal))
    (h25 : W (Proc.devRef .tc main_v25) = val_main_v25 (F := Ideal) x) :
    (StableHlo.after ((hostOps0_2 (F := Ideal)).drop 25) W (Proc.devRef .tc main_v31) : Cert.Spec.SR.Idx → EReal)
      = shapeCast Cert.Spec.SR (val_main_v27 (F := Ideal) x) Cert.Spec.sc_R := by
  simp only [List.drop_succ_cons, List.drop_zero]
  after_results_simp
  rw [h25]
  rfl

/-! ## The three operands of the first kernel's and the second kernel's windows -/

/-- `left` is the reference's patches stage at [8, 16384, 3, 3, 64], its 3x3 window merged. -/
theorem pre_v30 (m : (ℓ : Loc nD τ sig) → Buf (Elt Ideal) ℓ) (c : Dev nD) :
    (Gen.V3 m c main_v30 : Cert.Spec.SL.Idx → EReal)
      = shapeCast Cert.Spec.SL (val_main_v26 (F := Ideal) (m ((c.tc : Thread nD τ).loc main_arg0))) Cert.Spec.sc_L := by
  have h := c_post30 _ (StableHlo.after ((hostOps0_2 (F := Ideal)).take 25) (Gen.V2 m c)) (c_v25 _ (Gen.V2 m c) (c_v0 m c))
  rw [← StableHlo.after_append, List.take_append_drop] at h
  exact h

/-- `mid` is the reference's transposed image, its pixels merged. -/
theorem pre_v29 (m : (ℓ : Loc nD τ sig) → Buf (Elt Ideal) ℓ) (c : Dev nD) :
    (Gen.V3 m c main_v29 : Cert.Spec.SM.Idx → EReal)
      = shapeCast Cert.Spec.SM (val_main_v28 (F := Ideal) (m ((c.tc : Thread nD τ).loc main_arg0))) Cert.Spec.sc_M := by
  have hx : Gen.V2 m c (Proc.devRef .tc main_arg0) = m ((c.tc : Thread nD τ).loc main_arg0) :=
    (Gen.V2_of m c main_arg0 (by decide)).trans ((Gen.V1_of m c main_arg0 (by decide)).trans rfl)
  show StableHlo.after hostOps0_2 (Gen.V2 m c) (Proc.devRef .tc main_v29) = _
  generalize Gen.V2 m c = W at hx ⊢
  after_results_simp
  rw [hx]
  rfl

/-- `right` is the reference's patches stage at [8, 16384, 64, 3, 3], its 3x3 window merged. -/
theorem pre_v31 (m : (ℓ : Loc nD τ sig) → Buf (Elt Ideal) ℓ) (c : Dev nD) :
    (Gen.V3 m c main_v31 : Cert.Spec.SR.Idx → EReal)
      = shapeCast Cert.Spec.SR (val_main_v27 (F := Ideal) (m ((c.tc : Thread nD τ).loc main_arg0))) Cert.Spec.sc_R := by
  have h := c_post31 _ (StableHlo.after ((hostOps0_2 (F := Ideal)).take 25) (Gen.V2 m c)) (c_v25 _ (Gen.V2 m c) (c_v0 m c))
  rw [← StableHlo.after_append, List.take_append_drop] at h
  exact h

end Cert.KernelIdeal.Hand

end
-- ==== Proof.KHostMid.lean ====
/-
  The kernel program's host stretches after the first region, read back over the extended reals.

  Between the two regions the program takes the softmax of the channel sums A (an [8, 16384, 9] array) along the pixel
  axis and sums it over the nine window positions: with  mx(n,k) = max(-inf, max over p of A(n,p,k)),
  e(n,p,k) = exp(A(n,p,k) - mx(n,k)),  d(n,k) = 0 + sum over p of e(n,p,k),  the column handed to the second region is
  s(n,p,0) = 0 + sum over k of e(n,p,k) / d(n,k)  — `Spec.softSum A`, stage by stage. After the second region one
  reshape re-reads its result as an image. The stretch in between leaves `right` alone.
-/
import proofs.«112301_j67808943669345_2_alg».proof.Proof.Gen.KernelIdeal.Regions
import proofs.«112301_j67808943669345_2_alg».proof.Proof.Spec
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open scoped BigOperators

/-! ## The softmax stretch as stages of the channel sums -/

section Stages

variable (A : FVec Ideal S8x16384x9 .f32)

/-- The column maxima, taken again against minus infinity. -/
def midMax : FVec Ideal S8x9 .f32 :=
  maximumf (broadcastInDim S8x9 ![] bcast_S_S8x9 (constant (F := Ideal) S_ .f32 0xFF800000#32))
    (Host.reduce FloatOps.maximumf A (constant (F := Ideal) S_ .f32 0xFF800000#32) reducesTo_S8x16384x9_S8x9_d1 h_S_)

/-- The shifted exponentials. -/
def midExp : FVec Ideal S8x16384x9 .f32 :=
  Host.exp (subf A (broadcastInDim S8x16384x9 ![0, 1, 2] bcast_S8x1x9_S8x16384x9_0_1_2
    (broadcastInDim S8x1x9 ![0, 2] bcast_S8x9_S8x1x9_0_2 (midMax A))))

/-- The columns' denominators. -/
def midDen : FVec Ideal S8x9 .f32 :=
  Host.reduceAdd (midExp A) (constant (F := Ideal) S_ .f32 0x00000000#32) reducesTo_S8x16384x9_S8x9_d1 h_S_

/-- The softmax. -/
def midSoft : FVec Ideal S8x16384x9 .f32 :=
  Host.divf (midExp A) (broadcastInDim S8x16384x9 ![0, 1, 2] bcast_S8x1x9_S8x16384x9_0_1_2
    (broadcastInDim S8x1x9 ![0, 2] bcast_S8x9_S8x1x9_0_2 (midDen A)))

/-- The softmax summed over the window, kept as a column. -/
def midSum : FVec Ideal S8x16384x1 .f32 :=
  broadcastInDim S8x16384x1 ![0, 1] bcast_S8x16384_S8x16384x1_0_1
    (Host.reduceAdd (midSoft A) (constant (F := Ideal) S_ .f32 0x00000000#32) reducesTo_S8x16384x9_S8x16384_d2 h_S_)

/-- A per-column value spread over the pixels: at (n, p, k) it is the value of column (n, k). -/
theorem spread_apply (y : S8x9.Idx → EReal) (n : Fin 8) (p : Fin 16384) (k : Fin 9) :
    broadcastInDim S8x16384x9 ![0, 1, 2] bcast_S8x1x9_S8x16384x9_0_1_2
      (broadcastInDim S8x1x9 ![0, 2] bcast_S8x9_S8x1x9_0_2 y) (ix3 n p k) = y (ix2 n k) := by
  rw [broadcastInDim_apply _ bcast_S8x1x9_S8x16384x9_0_1_2 _ (ix3 n p k) (ix3 n (0 : Fin 1) k) (fun a => match a with
    | ⟨0, _⟩ => by show n.val = if (8 : Nat) = 1 then 0 else n.val; rw [if_neg (by decide)]
    | ⟨1, _⟩ => by show 0 = if (1 : Nat) = 1 then 0 else p.val; rw [if_pos rfl]
    | ⟨2, _⟩ => by show k.val = if (9 : Nat) = 1 then 0 else k.val; rw [if_neg (by decide)])]
  exact broadcastInDim_apply _ bcast_S8x9_S8x1x9_0_2 y (ix3 n (0 : Fin 1) k) (ix2 n k) (fun a => match a with
    | ⟨0, _⟩ => by show n.val = if (8 : Nat) = 1 then 0 else n.val; rw [if_neg (by decide)]
    | ⟨1, _⟩ => by show k.val = if (9 : Nat) = 1 then 0 else k.val; rw [if_neg (by decide)])

/-- The column maximum is the fold of max over the pixels from minus infinity, taken again against minus infinity. -/
theorem midMax_apply (n : Fin 8) (k : Fin 9) : midMax A (ix2 n k) = Spec.colMax A n k := by
  unfold midMax Spec.colMax
  rw [maximumf_apply]
  have hR : S8x16384x9.Reduces [1] S8x9 := by decide
  rw [Host.reduce_eq_fold_single (α := EReal) (FloatOps.maximumf (F := Ideal) (φ := .f32)) A (constant (F := Ideal) S_ .f32 0xFF800000#32)
    reducesTo_S8x16384x9_S8x9_d1 hR h_S_ (ix2 n k)]
  have hf : A ∘ hR.lift (ix2 n k) = fun p => A (ix3 n p k) := funext fun p => congrArg A (funext fun d => Fin.ext (by
    match d with | ⟨0, _⟩ => rfl | ⟨1, _⟩ => rfl | ⟨2, _⟩ => rfl))
  rw [hf]
  rfl

/-- The shifted exponential. -/
theorem midExp_apply (n : Fin 8) (p : Fin 16384) (k : Fin 9) : midExp A (ix3 n p k) = Spec.expo A n p k := by
  unfold midExp Spec.expo
  show FloatOps.hostUnary .exp (FloatOps.subf (A (ix3 n p k)) _) = _
  rw [spread_apply, midMax_apply]
  rfl

/-- The denominator: the host's sum over the pixels, from the zero word. -/
theorem midDen_apply (n : Fin 8) (k : Fin 9) : midDen A (ix2 n k) = Spec.denom A n k := by
  unfold midDen Spec.denom
  simp only [Host.reduceAdd, Ideal.hostReduceAdd_def]
  rw [Ideal.hostReduceAdd_single reducesTo_S8x16384x9_S8x9_d1 (by decide)]
  refine congrArg₂ (· + ·) rfl (Finset.sum_congr rfl fun p _ => ?_)
  exact (congrArg (midExp A) (funext fun a => Fin.ext (by
    match a with | ⟨0, _⟩ => rfl | ⟨1, _⟩ => rfl | ⟨2, _⟩ => rfl))).trans (midExp_apply A n p k)

/-- The softmax. -/
theorem midSoft_apply (n : Fin 8) (p : Fin 16384) (k : Fin 9) : midSoft A (ix3 n p k) = Spec.soft A n p k := by
  unfold midSoft Spec.soft
  show FloatOps.hostDivf (midExp A (ix3 n p k)) _ = _
  rw [spread_apply, midDen_apply, midExp_apply]
  rfl

/-- The stretch's result is the softmax's sum over the window, from the zero word, as a column. -/
theorem midSum_eq : midSum A = Spec.softSum A := by
  funext j
  obtain ⟨n, p, z, rfl⟩ : ∃ (n : Fin 8) (p : Fin 16384) (z : Fin 1), j = ix3 n p z := ⟨j 0, j 1, j 2, eq_ix3 j⟩
  unfold midSum Spec.softSum
  rw [broadcastInDim_apply _ bcast_S8x16384_S8x16384x1_0_1 _ (ix3 n p z) (ix2 n p) (fun a => match a with
    | ⟨0, _⟩ => by show n.val = if (8 : Nat) = 1 then 0 else n.val; rw [if_neg (by decide)]
    | ⟨1, _⟩ => by show p.val = if (16384 : Nat) = 1 then 0 else p.val; rw [if_neg (by decide)])]
  simp only [Host.reduceAdd, Ideal.hostReduceAdd_def]
  rw [Ideal.hostReduceAdd_single reducesTo_S8x16384x9_S8x16384_d2 (by decide)]
  refine congrArg₂ (· + ·) rfl (Finset.sum_congr rfl fun k _ => ?_)
  exact (congrArg (midSoft A) (funext fun a => Fin.ext (by
    match a with | ⟨0, _⟩ => rfl | ⟨1, _⟩ => rfl | ⟨2, _⟩ => rfl))).trans (midSoft_apply A n p k)

end Stages

/-! ## The stretches read off the buffer contents -/

variable (m : (ℓ : Loc nD τ sig) → Buf (Elt Ideal) ℓ) (o : Gen.Outs (F := Ideal)) (c : Dev nD)

/-- After the softmax stretch the column buffer holds `Spec.softSum` of what region 0 left in the channel sums' array. -/
theorem mid_v45 : (Gen.V5 m o c main_v45 : Cert.Spec.SS.Idx → EReal) = Cert.Spec.softSum (o 4 main_v32 c) := by
  have h32 : Gen.V4 m o c main_v32 = o 4 main_v32 c := by
    show Function.update (Gen.V3 m c) main_v32 (o 4 main_v32 c) main_v32 = _
    rw [Function.update_self]
  refine Eq.trans ?_ (midSum_eq (o 4 main_v32 c))
  rw [← h32]
  show StableHlo.after hostOps1 (Gen.V4 m o c) (Proc.devRef .tc main_v45) = _
  generalize Gen.V4 m o c = W
  after_results_simp
  rfl

/-- The softmax stretch and region 0 leave `right` as the host prefix made it. -/
theorem mid_v31 : Gen.V5 m o c main_v31 = Gen.V3 m c main_v31 :=
  (Gen.V5_of m o c main_v31 (by decide)).trans (Gen.V4_of m o c main_v31 (by decide))

/-- The last stretch re-reads what region 1 left as an image. -/
theorem tail_v47 : (Gen.V7 m o c main_v47 : Cert.Spec.SX.Idx → EReal) = shapeCast Cert.Spec.SX (o 6 main_v46 c) Cert.Spec.sc_X := by
  have h46 : Gen.V6 m o c main_v46 = o 6 main_v46 c := by
    show Function.update (Gen.V5 m o c) main_v46 (o 6 main_v46 c) main_v46 = _
    rw [Function.update_self]
  rw [← h46]
  show StableHlo.after hostOps2 (Gen.V6 m o c) (Proc.devRef .tc main_v47) = _
  generalize Gen.V6 m o c = W
  after_results
  rfl

end Cert.KernelIdeal.Hand

end
-- ==== Proof.RefValue.lean ====
/-
  The reference program's value is the common function of the two programs.

  Read at image `n`, pixel `p`, channel `c`, the reference's last array before its closing reshape is
    (zero + sum over the 3x3 window of the softmax at (n, p, a, b)) + (zero + sum over the window of right(n, p, c, a, b)),
  where the softmax is taken along the pixels of the channel sums  zero + sum over c of (left(n,p,a,b,c) + mid(n,p,c)).
  The common function merges the window's two axes into one of extent nine (position 3a + b), puts the window sum of
  `right` first, and starts the channel sums and the window sum of `right` from nothing; so the proof is: read every stage
  at an index, re-index the double sums over the window as sums over the nine positions, drop the two zeros that the
  common function does not carry, and commute the last addition. The three shared stages (the patches re-read as
  `left` and as `right`, the image with its channels last) are never opened.
-/
import proofs.«112301_j67808943669345_2_alg».proof.Proof.RefRead
import proofs.«112301_j67808943669345_2_alg».proof.Proof.Spec

noncomputable section

namespace Cert.RefValue

open Cert.ReferenceIdeal Cert.ReferenceIdeal.ReadP Cert.ReferenceIdeal.Gen
open Idealize.ShloMosaic Idealize.ShloMosaic.ValueIdx
open scoped BigOperators

/-! ## The window: two axes of extent three against one of extent nine -/

/-- The merged position of row `a`, column `b` of the 3x3 window. -/
def e_k (a b : Fin 3) : Fin 9 := ⟨3 * a.val + b.val, by omega⟩

/-- A double sum over the window's rows and columns is the sum over its nine merged positions. -/
theorem e_sum_win {M : Type} [AddCommMonoid M] (f : Fin 9 → M) :
    ∑ a : Fin 3, ∑ b : Fin 3, f (e_k a b) = ∑ k : Fin 9, f k := by
  refine Eq.trans (Fintype.sum_prod_type (f := fun q : Fin 3 × Fin 3 => f (e_k q.1 q.2))).symm ?_
  exact Fintype.sum_equiv (finProdFinEquiv (m := 3) (n := 3)) _ _ (fun q => congrArg f (Fin.ext (by
    show 3 * q.1.val + q.2.val = (finProdFinEquiv q).val
    rw [finProdFinEquiv_apply_val]; omega)))

/-! ## A host sum over the two window axes, read at an index -/

/-- Over the last two axes of a rank-4 array: the indices that drop to (n, p) are (n, p, a, b). -/
theorem e_sum_two4 (h : S8x16384x3x3.ReducesTo [2, 3] S8x16384) (y : S8x16384x3x3.Idx → EReal) (n : Fin 8) (p : Fin 16384) :
    ∑ i ∈ Finset.univ.filter (fun i => h.drop i = ix2 n p), y i = ∑ a : Fin 3, ∑ b : Fin 3, y (ix4 n p a b) := by
  have key : ∀ i : S8x16384x3x3.Idx, h.drop i = ix2 n p → ix4 n p (i 2) (i 3) = i := by
    intro i hj
    have h0 : i 0 = n := Fin.ext ((h.drop_apply_val_of_eq i 0 0).symm.trans (congrArg (fun j => (j 0).val) hj))
    have h1 : i 1 = p := Fin.ext ((h.drop_apply_val_of_eq i 1 1).symm.trans (congrArg (fun j => (j 1).val) hj))
    funext d
    match d with
    | ⟨0, _⟩ => exact h0.symm
    | ⟨1, _⟩ => exact h1.symm
    | ⟨2, _⟩ => rfl
    | ⟨3, _⟩ => rfl
  refine Eq.trans ?_ (Fintype.sum_prod_type (f := fun q : Fin 3 × Fin 3 => y (ix4 n p q.1 q.2)))
  refine Finset.sum_nbij' (fun i => (i 2, i 3)) (fun q => ix4 n p q.1 q.2) ?_ ?_ ?_ ?_ ?_
  · intro i _; exact Finset.mem_univ _
  · intro q _
    refine Finset.mem_filter.2 ⟨Finset.mem_univ _, funext fun d => Fin.ext ?_⟩
    match d with
    | ⟨0, _⟩ => exact h.drop_apply_val_of_eq (ix4 n p q.1 q.2) 0 0
    | ⟨1, _⟩ => exact h.drop_apply_val_of_eq (ix4 n p q.1 q.2) 1 1
  · intro i hi; exact key i (Finset.mem_filter.1 hi).2
  · intro q _; rfl
  · intro i hi; exact congrArg y (key i (Finset.mem_filter.1 hi).2).symm

/-- Over the last two axes of a rank-5 array: the indices that drop to (n, p, c) are (n, p, c, a, b). -/
theorem e_sum_two5 (h : S8x16384x64x3x3.ReducesTo [3, 4] S8x16384x64) (y : S8x16384x64x3x3.Idx → EReal)
    (n : Fin 8) (p : Fin 16384) (c : Fin 64) :
    ∑ i ∈ Finset.univ.filter (fun i => h.drop i = ix3 n p c), y i = ∑ a : Fin 3, ∑ b : Fin 3, y (ix5 n p c a b) := by
  have key : ∀ i : S8x16384x64x3x3.Idx, h.drop i = ix3 n p c → ix5 n p c (i 3) (i 4) = i := by
    intro i hj
    have h0 : i 0 = n := Fin.ext ((h.drop_apply_val_of_eq i 0 0).symm.trans (congrArg (fun j => (j 0).val) hj))
    have h1 : i 1 = p := Fin.ext ((h.drop_apply_val_of_eq i 1 1).symm.trans (congrArg (fun j => (j 1).val) hj))
    have h2 : i 2 = c := Fin.ext ((h.drop_apply_val_of_eq i 2 2).symm.trans (congrArg (fun j => (j 2).val) hj))
    funext d
    match d with
    | ⟨0, _⟩ => exact h0.symm
    | ⟨1, _⟩ => exact h1.symm
    | ⟨2, _⟩ => exact h2.symm
    | ⟨3, _⟩ => rfl
    | ⟨4, _⟩ => rfl
  refine Eq.trans ?_ (Fintype.sum_prod_type (f := fun q : Fin 3 × Fin 3 => y (ix5 n p c q.1 q.2)))
  refine Finset.sum_nbij' (fun i => (i 3, i 4)) (fun q => ix5 n p c q.1 q.2) ?_ ?_ ?_ ?_ ?_
  · intro i _; exact Finset.mem_univ _
  · intro q _
    refine Finset.mem_filter.2 ⟨Finset.mem_univ _, funext fun d => Fin.ext ?_⟩
    match d with
    | ⟨0, _⟩ => exact h.drop_apply_val_of_eq (ix5 n p c q.1 q.2) 0 0
    | ⟨1, _⟩ => exact h.drop_apply_val_of_eq (ix5 n p c q.1 q.2) 1 1
    | ⟨2, _⟩ => exact h.drop_apply_val_of_eq (ix5 n p c q.1 q.2) 2 2
  · intro i hi; exact key i (Finset.mem_filter.1 hi).2
  · intro q _; rfl
  · intro i hi; exact congrArg y (key i (Finset.mem_filter.1 hi).2).symm

/-- The host's sum over the window axes of a rank-4 array at (n, p): the initial value plus the double sum. -/
theorem e_reduce4 (y : S8x16384x3x3.Idx → EReal) (init : S_.Idx → EReal) (n : Fin 8) (p : Fin 16384) :
    Host.reduceAdd (F := Ideal) (φ := .f32) y init reducesTo_S8x16384x3x3_S8x16384_d2_3 h_S_ (ix2 n p)
      = init (Shape.Idx.first h_S_) + ∑ a : Fin 3, ∑ b : Fin 3, y (ix4 n p a b) := by
  simp only [Host.reduceAdd, Ideal.hostReduceAdd_def]
  unfold Ideal.hostReduceAdd
  rw [e_sum_two4]

/-- The host's sum over the window axes of a rank-5 array at (n, p, c): the initial value plus the double sum. -/
theorem e_reduce5 (y : S8x16384x64x3x3.Idx → EReal) (init : S_.Idx → EReal) (n : Fin 8) (p : Fin 16384) (c : Fin 64) :
    Host.reduceAdd (F := Ideal) (φ := .f32) y init reducesTo_S8x16384x64x3x3_S8x16384x64_d3_4 h_S_ (ix3 n p c)
      = init (Shape.Idx.first h_S_) + ∑ a : Fin 3, ∑ b : Fin 3, y (ix5 n p c a b) := by
  simp only [Host.reduceAdd, Ideal.hostReduceAdd_def]
  unfold Ideal.hostReduceAdd
  rw [e_sum_two5]

/-! ## The merged arrays read at an index -/

/-- `left` with the window merged, at position 3a + b, is `left` at (a, b). -/
theorem e_castL (L : Spec.SL5.Idx → EReal) (n : Fin 8) (p : Fin 16384) (a b : Fin 3) (c : Fin 64) :
    shapeCast Spec.SL L Spec.sc_L (ix4 n p (e_k a b) c) = L (ix5 n p a b c) :=
  shapeCast_apply L Spec.sc_L _ _ (by
    rw [Shape.rowMajor_val_five, Shape.rowMajor_val_four]
    show (((n.val * 16384 + p.val) * 3 + a.val) * 3 + b.val) * 64 + c.val
      = ((n.val * 16384 + p.val) * 9 + (3 * a.val + b.val)) * 64 + c.val
    omega)

/-- `right` with the window merged, at position 3a + b, is `right` at (a, b). -/
theorem e_castR (R : Spec.SR5.Idx → EReal) (n : Fin 8) (p : Fin 16384) (c : Fin 64) (a b : Fin 3) :
    shapeCast Spec.SR R Spec.sc_R (ix4 n p c (e_k a b)) = R (ix5 n p c a b) :=
  shapeCast_apply R Spec.sc_R _ _ (by
    rw [Shape.rowMajor_val_five, Shape.rowMajor_val_four]
    show (((n.val * 16384 + p.val) * 64 + c.val) * 3 + a.val) * 3 + b.val
      = ((n.val * 16384 + p.val) * 64 + c.val) * 9 + (3 * a.val + b.val)
    omega)

/-- The image with its channels last, read where the broadcast of its pixel-merged form reads it, is `mid` at (n, p, c). -/
theorem e_castM (Mt : Spec.SM4.Idx → EReal) (n : Fin 8) (p : Fin 16384) (a b : Fin 3) (c : Fin 64) :
    Mt (idx_main_v29 (idx_main_v30 (ix5 n p a b c))) = shapeCast Spec.SM Mt Spec.sc_M (ix3 n p c) := by
  refine (shapeCast_apply Mt Spec.sc_M (ix3 n p c) _ ?_).symm
  rw [Shape.rowMajor_val_four, Shape.rowMajor_val_three]
  show ((((((n.val * 16384 + p.val) * 1 + 0) * 1 + 0) * 64 + c.val) / 1048576 * 128
        + ((((n.val * 16384 + p.val) * 1 + 0) * 1 + 0) * 64 + c.val) / 8192 % 128) * 128
        + ((((n.val * 16384 + p.val) * 1 + 0) * 1 + 0) * 64 + c.val) / 64 % 128) * 64
        + ((((n.val * 16384 + p.val) * 1 + 0) * 1 + 0) * 64 + c.val) % 64
      = (n.val * 16384 + p.val) * 64 + c.val
  have := n.isLt; have := p.isLt; have := c.isLt
  omega

variable (x : (⟨S8x64x128x128, .f32⟩ : BufTy).Contents (Elt Ideal))

/-- The reference's `left`: its patches re-read pixel-major, channels last, the window merged. -/
abbrev e_l : Spec.SL.Idx → EReal := shapeCast Spec.SL (val_main_v26 (F := Ideal) x) Spec.sc_L
/-- The reference's `mid`: the image with its channels last, the pixels merged. -/
abbrev e_md : Spec.SM.Idx → EReal := shapeCast Spec.SM (val_main_v28 (F := Ideal) x) Spec.sc_M
/-- The reference's `right`: its patches re-read pixel-major, window last, the window merged. -/
abbrev e_r : Spec.SR.Idx → EReal := shapeCast Spec.SR (val_main_v27 (F := Ideal) x) Spec.sc_R
/-- The channel sums of the reference's `left` and `mid`. -/
abbrev e_A : Spec.SA.Idx → EReal := Spec.chanArr (e_l x) (e_md x)

/-- The centre pixel broadcast over the window is `mid` at (n, p, c). -/
theorem e_v30 (n : Fin 8) (p : Fin 16384) (a b : Fin 3) (c : Fin 64) :
    val_main_v30 (F := Ideal) x (ix5 n p a b c) = e_md x (ix3 n p c) := by
  rw [val_main_v30_apply, val_main_v29_apply]
  exact e_castM (val_main_v28 (F := Ideal) x) n p a b c

/-- The channel sums: the reference's sum over the channels, started from zero, at window position (a, b). -/
theorem e_v32 (n : Fin 8) (p : Fin 16384) (a b : Fin 3) :
    val_main_v32 (F := Ideal) x (ix4 n p a b) = Spec.chan (e_l x) (e_md x) n p (e_k a b) := by
  rw [val_main_v32_apply, val_main_cst_apply, Ideal.ofBits_def, Ideal.ofBits_zero_f32, zero_add]
  unfold Spec.chan
  refine Finset.sum_congr rfl fun c _ => ?_
  have hi : idx_main_v32 (ix4 n p a b) c = ix5 n p a b c := funext fun d => by
    match d with | ⟨0, _⟩ => rfl | ⟨1, _⟩ => rfl | ⟨2, _⟩ => rfl | ⟨3, _⟩ => rfl | ⟨4, _⟩ => rfl
  rw [hi, val_main_v31_apply, e_v30]
  exact congrArg (· + e_md x (ix3 n p c)) (e_castL (val_main_v26 (F := Ideal) x) n p a b c).symm

/-- The maximum over the pixels, from minus infinity. -/
theorem e_v33 (n : Fin 8) (a b : Fin 3) :
    val_main_v33 (F := Ideal) x (ix3 n a b)
      = (Finset.univ : Finset (Fin 16384)).fold max Spec.ninf (fun p => val_main_v32 (F := Ideal) x (ix4 n p a b)) := by
  unfold val_main_v33
  generalize val_main_v32 (F := Ideal) x = y
  have hR : S8x16384x3x3.Reduces [1] S8x3x3 := by decide
  rw [Host.reduce_eq_fold_single (α := EReal) (FloatOps.maximumf (F := Ideal) (φ := .f32)) y (val_main_cst_0 (F := Ideal))
    reducesTo_S8x16384x3x3_S8x3x3_d1 hR h_S_ (ix3 n a b)]
  have hf : y ∘ hR.lift (ix3 n a b) = fun p => y (ix4 n p a b) := funext fun p => congrArg y (funext fun d => Fin.ext (by
    match d with | ⟨0, _⟩ => rfl | ⟨1, _⟩ => rfl | ⟨2, _⟩ => rfl | ⟨3, _⟩ => rfl))
  rw [hf]
  rfl

/-- The column maximum as the softmax spells it. -/
theorem e_v37 (n : Fin 8) (p : Fin 16384) (a b : Fin 3) :
    val_main_v37 (F := Ideal) x (ix4 n p a b) = Spec.colMax (e_A x) n (e_k a b) := by
  rw [val_main_v37_apply, val_main_v36_apply, val_main_v35_apply, val_main_v34_apply, val_main_cst_1_apply]
  have hi : idx_main_v36 (idx_main_v37 (ix4 n p a b)) = ix3 n a b := funext fun d => by
    match d with | ⟨0, _⟩ => rfl | ⟨1, _⟩ => rfl | ⟨2, _⟩ => rfl
  rw [hi, e_v33]
  have hf : (fun q => val_main_v32 (F := Ideal) x (ix4 n q a b)) = fun q => e_A x (ix3 n q (e_k a b)) :=
    funext fun q => e_v32 x n q a b
  rw [hf]
  rfl

/-- The shifted exponential. -/
theorem e_v39 (n : Fin 8) (p : Fin 16384) (a b : Fin 3) :
    val_main_v39 (F := Ideal) x (ix4 n p a b) = Spec.expo (e_A x) n p (e_k a b) := by
  rw [val_main_v39_apply, val_main_v38_apply, e_v32, e_v37]
  rfl

/-- The softmax's denominator. -/
theorem e_v42 (n : Fin 8) (p : Fin 16384) (a b : Fin 3) :
    val_main_v42 (F := Ideal) x (ix4 n p a b) = Spec.denom (e_A x) n (e_k a b) := by
  rw [val_main_v42_apply, val_main_v41_apply]
  have hi : idx_main_v41 (idx_main_v42 (ix4 n p a b)) = ix3 n a b := funext fun d => by
    match d with | ⟨0, _⟩ => rfl | ⟨1, _⟩ => rfl | ⟨2, _⟩ => rfl
  rw [hi, val_main_v40_apply, val_main_cst_2_apply]
  have hf : ∀ q : Fin 16384, val_main_v39 (F := Ideal) x (idx_main_v40 (ix3 n a b) q) = Spec.expo (e_A x) n q (e_k a b) := by
    intro q
    have hq : idx_main_v40 (ix3 n a b) q = ix4 n q a b := funext fun d => by
      match d with | ⟨0, _⟩ => rfl | ⟨1, _⟩ => rfl | ⟨2, _⟩ => rfl | ⟨3, _⟩ => rfl
    rw [hq, e_v39]
  rw [Finset.sum_congr rfl fun q _ => hf q]
  rfl

/-- The softmax. -/
theorem e_v43 (n : Fin 8) (p : Fin 16384) (a b : Fin 3) :
    val_main_v43 (F := Ideal) x (ix4 n p a b) = Spec.soft (e_A x) n p (e_k a b) := by
  rw [val_main_v43_apply, e_v39, e_v42]
  rfl

/-- The softmax summed over the window. -/
theorem e_v44 (n : Fin 8) (p : Fin 16384) :
    val_main_v44 (F := Ideal) x (ix2 n p) = Spec.softSum (e_A x) (ix3 n p (0 : Fin 1)) := by
  unfold val_main_v44
  rw [e_reduce4, val_main_cst_3_apply]
  rw [Finset.sum_congr rfl fun a _ => Finset.sum_congr rfl fun b _ => e_v43 x n p a b]
  rw [e_sum_win (fun k => Spec.soft (e_A x) n p k)]
  rfl

/-- The window sum of `right`: the reference starts it from zero, the common function from nothing. -/
theorem e_v46 (n : Fin 8) (p : Fin 16384) (c : Fin 64) :
    val_main_v46 (F := Ideal) x (ix3 n p c) = ∑ k : Fin 9, e_r x (ix4 n p c k) := by
  unfold val_main_v46
  rw [e_reduce5, val_main_cst_4_apply, Ideal.ofBits_def, Ideal.ofBits_zero_f32, zero_add]
  rw [← e_sum_win (fun k => e_r x (ix4 n p c k))]
  exact Finset.sum_congr rfl fun a _ => Finset.sum_congr rfl fun b _ => (e_castR _ n p c a b).symm

/-- The reference's last array before its closing reshape is the common function of its three shared stages. -/
theorem ref_v48 (x : (⟨Cert.ReferenceIdeal.S8x64x128x128, .f32⟩ : BufTy).Contents (Elt Ideal)) :
    (val_main_v48 (F := Ideal) x : Cert.Spec.SM.Idx → EReal)
      = Cert.Spec.result (shapeCast Cert.Spec.SL (val_main_v26 (F := Ideal) x) Cert.Spec.sc_L)
                         (shapeCast Cert.Spec.SM (val_main_v28 (F := Ideal) x) Cert.Spec.sc_M)
                         (shapeCast Cert.Spec.SR (val_main_v27 (F := Ideal) x) Cert.Spec.sc_R) := by
  funext j
  obtain ⟨n, p, c, rfl⟩ : ∃ n p c, j = ix3 n p c := ⟨j 0, j 1, j 2, eq_ix3 j⟩
  rw [val_main_v48_apply, val_main_v47_apply, val_main_v45_apply]
  have hi : idx_main_v45 (idx_main_v47 (ix3 n p c)) = ix2 n p := funext fun d => by
    match d with | ⟨0, _⟩ => rfl | ⟨1, _⟩ => rfl
  rw [hi, e_v44, e_v46]
  exact add_comm _ _

end Cert.RefValue

end
-- ==== Proof.Bridge.lean ====
/-
  The two idealized programs compute one function of the argument.

  Both programs build the same 3x3 patches of the zero-padded image by the same host operations and re-read them
  row-major in two ways, `left` (window before channels) and `right` (channels before window); both take the image with
  its channels last as `mid`. From there the kernel program works with the window's two axes merged into one of extent
  nine and in two kernel regions (the channel sums; the window sums plus the softmax's sum), the reference with the
  window as two axes of extent three and on the host alone. `common` is the function both end at.
-/
import proofs.«112301_j67808943669345_2_alg».proof.Proof.KRun
import proofs.«112301_j67808943669345_2_alg».proof.Proof.RegValue
import proofs.«112301_j67808943669345_2_alg».proof.Proof.KHostPre
import proofs.«112301_j67808943669345_2_alg».proof.Proof.KHostMid
import proofs.«112301_j67808943669345_2_alg».proof.Proof.RefValue

noncomputable section

open Idealize.ShloMosaic Idealize.ShloMosaic.TcCoe Idealize.SL.Sem

namespace Cert.Proof.Bridge

open Cert.ReferenceIdeal.ReadP

/-- The common function at an argument array: `Spec.whole` of the three shared stages (the patches re-read as `left`
    and as `right`, the image with channels last), which both programs compute by the same host operations. -/
def common (x : Cert.Spec.SX.Idx → EReal) : Cert.Spec.SX.Idx → EReal :=
  Cert.Spec.whole (val_main_v26 (F := Ideal) x) (val_main_v28 (F := Ideal) x) (val_main_v27 (F := Ideal) x)

/-- The kernel program's result buffer after the run: the last reshape of what region 1 leaves, which is the window
    sums of `right` plus the softmax sums of what region 0 leaves, the channel sums of `left` plus `mid`. -/
theorem kernel_value (m : (ℓ : Loc Cert.KernelIdeal.nD Cert.KernelIdeal.τ Cert.KernelIdeal.sig) → Buf (Elt Ideal) ℓ) (c : Dev Cert.KernelIdeal.nD) :
    Cert.KernelIdeal.Gen.V7 m (Cert.KernelIdeal.Hand.outs m) c Cert.KernelIdeal.main_v47
      = common (m ((c.tc : Thread Cert.KernelIdeal.nD Cert.KernelIdeal.τ).loc Cert.KernelIdeal.main_arg0)) :=
  open Cert.KernelIdeal Cert.KernelIdeal.Hand in
  (tail_v47 m (outs m) c).trans <| congrArg (fun A => shapeCast Cert.Spec.SX A Cert.Spec.sc_X) <|
    (outs6 m c).trans <| (arr1_eq (entry1 m (outs m)) c).trans <|
      congrArg₂ Cert.Spec.winOut ((mid_v31 m (outs m) c).trans (pre_v31 m c)) <|
        (mid_v45 m (outs m) c).trans <| congrArg Cert.Spec.softSum <|
          (outs4 m c).trans <| (arr0_eq (entry0 m) c).trans <|
            congrArg₂ Cert.Spec.chanArr (pre_v30 m c) (pre_v29 m c)

/-- The reference's last stage is the same function: its last operation is the same reshape of `Spec.result`. -/
theorem reference_value (x : (⟨Cert.ReferenceIdeal.S8x64x128x128, .f32⟩ : BufTy).Contents (Elt Ideal)) :
    val_main_v49 (F := Ideal) x = common x :=
  congrArg (fun A => shapeCast Cert.Spec.SX A Cert.Spec.sc_X) (Cert.RefValue.ref_v48 x)

end Cert.Proof.Bridge

end
-- ==== Proof.lean ====
/-
  The certificate of a 3x3-unfold attention step: a Pallas kernel program (two kernel regions among host operations)
  against its plain reference, over the extended reals.

  The claim's five parts:
  * the three frames: each program runs to the end, faults nowhere and leaves the argument image unchanged — for the two
    kernel programs (the word-level one and its idealization, the same text) by running @main's seven items in order,
    each region through its pipeline with the body's one whole-block store (KRun / KRunB), for the reference by its 58
    host operations folded (RefFold);
  * the idealization rewrote nothing, so there is nothing to preserve;
  * the two idealized programs end with equal results: both compute
      out(n,p,c) = sum over the window of right(n,p,c,k) + sum over the window of softmax_p(sum over channels of (left + mid))(n,p,k),
    re-read as an image (Bridge). The laws used are commutativity and associativity of + on the extended reals and a
    re-indexing of the 3x3 window as nine positions; no finiteness of the input is needed.
-/
import proofs.«112301_j67808943669345_2_alg».proof.Defs
import proofs.«112301_j67808943669345_2_alg».proof.Proof.Gen.Kernel
import proofs.«112301_j67808943669345_2_alg».proof.Proof.Gen.KernelIdeal
import proofs.«112301_j67808943669345_2_alg».proof.Proof.Gen.ReferenceIdeal
import proofs.«112301_j67808943669345_2_alg».proof.Proof.Gen.Pre_finite_inputs
import proofs.«112301_j67808943669345_2_alg».proof.Proof.KRunB
import proofs.«112301_j67808943669345_2_alg».proof.Proof.RefFold
import proofs.«112301_j67808943669345_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel program's frame. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefFold.ref_run m ρ)

/-- From memories agreeing on the argument both idealized programs end at the common function of it. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Bridge.common (m ((c.tc : Thread Cert.KernelIdeal.nD Cert.KernelIdeal.τ).loc Cert.KernelIdeal.main_arg0)), ?_, ?_⟩
  · exact (θ_run Cert.KernelIdeal.defs _ _).mono (fun _ h c => ⟨(h c).1.trans (Bridge.kernel_value m c), (h c).2⟩)
      (Cert.KernelIdeal.Hand.run_val (F := Ideal) m ρ)
  · refine (θ_run Cert.ReferenceIdeal.defs _ _).mono (fun _ h c => ⟨(h c).1.trans ?_, (h c).2⟩) (Cert.RefFold.ref_run m' ρ')
    rw [hagree c]
    exact Bridge.reference_value _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
